-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S64x1024 : Shape := ⟨2, ![64, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  main_v18

def fn {F : FTy → Type} [FloatOps F] (main_arg0 : FVec F S4x2048x1024 .f32) (main_arg1 : FVec F S64x1024 .f32) (main_arg2 : FVec F S64x1024 .f32) (main_arg3 : FVec F S64x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_v13 main_v16
-- ==== Kernel.lean ====
abbrev S4x2048x1024 : Shape := ⟨3, ![4, 2048, 1024]⟩
abbrev S64x1024 : Shape := ⟨2, ![64, 1024]⟩
abbrev S8192x1024 : Shape := ⟨2, ![8192, 1024]⟩
abbrev S1024x64 : Shape := ⟨2, ![1024, 64]⟩
abbrev S8192x64 : Shape := ⟨2, ![8192, 64]⟩
abbrev S1024x1024 : Shape := ⟨2, ![1024, 1024]⟩
abbrev S4x2048x64 : Shape := ⟨3, ![4, 2048, 64]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1x1024 : Shape := ⟨2, ![1, 1024]⟩
abbrev S1x1024x1 : Shape := ⟨3, ![1, 1024, 1]⟩

abbrev nBuf : Space → Nat
  | .hbm => 15
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S8192x1024, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S8192x64, .f32⟩
  | .hbm, ⟨9, _⟩ => ⟨S8192x64, .f32⟩
  | .hbm, ⟨10, _⟩ => ⟨S8192x64, .f32⟩
  | .hbm, ⟨11, _⟩ => ⟨S4x2048x64, .f32⟩
  | .hbm, ⟨12, _⟩ => ⟨S4x2048x64, .f32⟩
  | .hbm, ⟨13, _⟩ => ⟨S4x2048x64, .f32⟩
  | .hbm, ⟨14, _⟩ => ⟨S4x2048x64, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1x1024x64, .f32⟩
  | .local _ .vmem, ⟨12, _⟩ => ⟨S1x1024x64, .f32⟩
  | .local _ .vmem, ⟨13, _⟩ => ⟨S1x2048x64, .f32⟩
  | .local _ .vmem, ⟨14, _⟩ => ⟨S1x2048x64, .f32⟩
  | .local _ .vmem, ⟨15, _⟩ => ⟨S1x2048x64, .f32⟩
  | .local _ .vmem, ⟨16, _⟩ => ⟨S1x2048x64, .f32⟩
  | .local _ .vmem, ⟨17, _⟩ => ⟨S1x1024x64, .f32⟩
  | .local _ .vmem, ⟨18, _⟩ => ⟨S1x1024x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x1024_S8192x1024 : S4x2048x1024.ShapeCasts S8192x1024
  transposes_S64x1024_S1024x64_1_0 : S64x1024.Transposes [1, 0] S1024x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S8192x64_S4x2048x64 : S8192x64.ShapeCasts S4x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  iota_S1x1024x2048_d1_w32 : S1x1024x2048.Iotas .tc 32 [1]
  iota_S1x1024x2048_d2_w32 : S1x1024x2048.Iotas .tc 32 [2]
  reduces_S1x1024x2048_S1x1024 : S1x1024x2048.Reduces [2] S1x1024
  shapeCasts_S1x1024_S1x1024x1 : S1x1024.ShapeCasts S1x1024x1
  broadcasts_S1x1024x1_S1x1024x2048 : S1x1024x1.Broadcasts S1x1024x2048
  dot_S1024x1024_S1024x64_S1024x64_1_0_0_1_n_n_wf : DotDims.WF S1024x1024 S1024x64 S1024x64 [1] [0] [0] [1] [] []
  dot_S1x1024x64_S1x2048x64_S1x1024x2048_2_2_1_1_0_0_wf : DotDims.WF S1x1024x64 S1x2048x64 S1x1024x2048 [2] [2] [1] [1] [0] [0]
  dot_S1x1024x2048_S1x2048x64_S1x1024x64_2_1_1_2_0_0_wf : DotDims.WF S1x1024x2048 S1x2048x64 S1x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S8192x64.size a
  hwx0_5 : ∀ i : grid0.Coords, EltTy.bits .f32 = 32 ∨ (Rect.block (s := S8192x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S8192x64.size a
  hwx0_6 : ∀ i : grid0.Coords, EltTy.bits .f32 = 32 ∨ (Rect.block (s := S8192x64) S1024x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x2048x64.size a
  hwx1_0 : ∀ i : grid1.Coords, EltTy.bits .f32 = 32 ∨ (Rect.block (s := S4x2048x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S4x2048x64.size a
  hwx1_1 : ∀ i : grid1.Coords, EltTy.bits .f32 = 32 ∨ (Rect.block (s := S4x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S4x2048x64.size a
  hwx1_2 : ∀ i : grid1.Coords, EltTy.bits .f32 = 32 ∨ (Rect.block (s := S4x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x2048x64.size a
  hwx1_3 : ∀ i : grid1.Coords, EltTy.bits .f32 = 32 ∨ (Rect.block (s := S4x2048x64) S1x1024x64.size (cc1_transform_3 i) (hinb1_3 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1x1024x64_S1x2048x64_S1x1024x2048_2_2_1_1_0_0 : DotDims S1x1024x64 S1x2048x64 S1x1024x2048 where
  lhsContracting := [2]
  rhsContracting := [2]
  lhsNonContracting := [1]
  rhsNonContracting := [1]
  lhsBatch := [0]
  rhsBatch := [0]
  wf := dot_S1x1024x64_S1x2048x64_S1x1024x2048_2_2_1_1_0_0_wf
def dot_S1x1024x2048_S1x2048x64_S1x1024x64_2_1_1_2_0_0 : DotDims S1x1024x2048 S1x2048x64 S1x1024x64 where
  lhsContracting := [2]
  rhsContracting := [1]
  lhsNonContracting := [1]
  rhsNonContracting := [2]
  lhsBatch := [0]
  rhsBatch := [0]
  wf := dot_S1x1024x2048_S1x2048x64_S1x1024x64_2_1_1_2_0_0_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S64x1024 : Shape := ⟨2, ![64, 1024]⟩
abbrev S4x2048x64 : Shape := ⟨3, ![4, 2048, 64]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S4x2048x64, .f32⟩
  | .hbm, ⟨5, _⟩ => ⟨S4x2048x64, .f32⟩
  | .hbm, ⟨6, _⟩ => ⟨S4x2048x64, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S4x2048x2048, .i1⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S64x1024_S4x2048x64_2_1_01_0_n_n_wf : DotDims.WF S4x2048x1024 S64x1024 S4x2048x64 [2] [1] [0, 1] [0] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S64x1024_S4x2048x64_2_1_01_0_n_n : DotDims S4x2048x1024 S64x1024 S4x2048x64 where
  lhsContracting := [2]
  rhsContracting := [1]
  lhsNonContracting := [0, 1]
  rhsNonContracting := [0]
  lhsBatch := []
  rhsBatch := []
  wf := dot_S4x2048x1024_S64x1024_S4x2048x64_2_1_01_0_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.KernelRun.lean ====
import proofs.«142069_j78125455115060_2_alg».proof.Proof.FrameKI

/-!
# The idealized kernel's run with its result array named

Every weakly fair execution of the two-region program terminates; the result array ends at the contents the
second region's write-backs leave (the last boundary's contents read at the result's buffer) and the four argument
arrays end as launched. The argument is the frame's: the same segments, the final thread state read at one more buffer.
-/

set_option maxRecDepth 16384

noncomputable section

namespace Cert.KernelIdeal.KRun

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result array at the last boundary's contents, the arguments unchanged. -/
theorem run_main : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.KRun

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibMergeRows.lean ====
/-
  Reshapes that merge or split the two LEADING axes of a rank-3 array, read at an index written by coordinates,
  for any element type and any extents.  A `[p, q, m]` array and the `[P, m]` array with the same row-major order
  (`P = p * q`) hold the same element at `(b, s, k)` and at `(b * q + s, k)`.  Each is the library's
  read-at-an-index lemma for a shape cast with the row-major arithmetic done.
-/
import Idealize.ShloMosaic.Lib.Pipeline.Value
import Idealize.ShloMosaic.Lib.ValueIdx

namespace Idealize.ShloMosaic.ValueIdx

open Idealize.ShloMosaic

variable {α : Type}

/-- A `[p, q, m]` array cast to `[P, m]` reads, at `(r, k)` with `r = b * q + s`, the operand at `(b, s, k)`. -/
theorem shapeCast_mergeRows_apply {p q P m : ℕ} (x : (⟨3, ![p, q, m]⟩ : Shape).Idx → α)
    (hc : (⟨3, ![p, q, m]⟩ : Shape).ShapeCasts ⟨2, ![P, m]⟩)
    (b : Fin p) (s : Fin q) (r : Fin P) (k : Fin m) (hr : r.val = b.val * q + s.val) :
    shapeCast ⟨2, ![P, m]⟩ x hc (ix2 r k) = x (ix3 b s k) :=
  shapeCast_apply x hc _ _ (by
    rw [Shape.rowMajor_val_three, Shape.rowMajor_val_two]
    show (b.val * q + s.val) * m + k.val = r.val * m + k.val
    rw [hr])

/-- A `[P, m]` array cast to `[p, q, m]` reads, at `(b, s, k)`, the operand at `(r, k)` with `r = b * q + s`. -/
theorem shapeCast_splitRows_apply {p q P m : ℕ} (y : (⟨2, ![P, m]⟩ : Shape).Idx → α)
    (hc : (⟨2, ![P, m]⟩ : Shape).ShapeCasts ⟨3, ![p, q, m]⟩)
    (b : Fin p) (s : Fin q) (r : Fin P) (k : Fin m) (hr : r.val = b.val * q + s.val) :
    shapeCast ⟨3, ![p, q, m]⟩ y hc (ix3 b s k) = y (ix2 r k) :=
  shapeCast_apply y hc _ _ (by
    rw [Shape.rowMajor_val_three, Shape.rowMajor_val_two]
    show r.val * m + k.val = (b.val * q + s.val) * m + k.val
    rw [hr])

end Idealize.ShloMosaic.ValueIdx
-- ==== Proof.KernelProj.lean ====
import proofs.«142069_j78125455115060_2_alg».proof.Proof.FrameKI
import proofs.«142069_j78125455115060_2_alg».proof.Proof.LibDotRows
import proofs.«142069_j78125455115060_2_alg».proof.Proof.LibMergeRows
import Idealize.ShloMosaic.Lib.Pipeline.Value
import Idealize.ShloMosaic.Lib.ValueIdx
import Idealize.ShloMosaic.Lib.StableHlo.Run
import Idealize.ShloMosaic.PureOps.Ideal.Laws

/-!
# The projection region's three result arrays

Each of the three output arrays `[8192, 64]` of the first region ends holding the plain matrix product of the
`[8192, 1024]` operand with one `[1024, 64]` operand: point `t` of the grid stores rows `1024·t … 1024·t + 1023`,
and row `r`, column `d` of a block is `∑ c, x (r, c) · w (c, d)` of the block of `x` at the same rows and the whole `w`.
-/

set_option maxRecDepth 16384

noncomputable section

namespace Cert.KernelIdeal.KVal

open Cert.KernelIdeal Cert.KernelIdeal.Gen Cert.KernelIdeal.GenP
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz2 : (![0, 0] : Fin 2 → Nat) = fun _ => 0 := funext fun a => by fin_cases a <;> rfl

/-- The plain product `[8192, 1024] · [1024, 64]`, index by index. -/
def mm (xs : S8192x1024.Idx → Elt Ideal .f32) (w : S1024x64.Idx → Elt Ideal .f32) : S8192x64.Idx → Elt Ideal .f32 :=
  fun i => ∑ c : Fin 1024, xs (ix2 (i 0) c) * w (ix2 c (i 1))

/-- The printed index maps over the grid: the operand's and the result's blocks are at row-block `t`, column-block 0; the weights' block is the whole array. -/
theorem idx_facts0_4 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_4.index t (0 : Fin 2) = t.val
    ∧ win0_4.index t (1 : Fin 2) = 0 :=
  (by decide +kernel : ∀ t : Fin grid0.N, _)

/-- A block's product at row `r`, column `d` (window 4's store). -/
theorem pay_w4_at (x0 : Vec Ideal S1024x1024 .f32) (x1 : Vec Ideal S1024x64 .f32) (r : Fin 1024) (d : Fin 64) :
    k0_pay2 (F := Ideal) x0 x1 (ix2 r d) = ∑ c : Fin 1024, x0 (ix2 r c) * x1 (ix2 c d) := by
  unfold k0_pay2 k0_pay1
  simp only [shapeCast_self]
  exact matmul_zero_rows dot_S1024x1024_S1024x64_S1024x64_1_0_0_1_n_n none rfl rfl (fun _ _ => rfl) (fun _ _ => rfl)
    (fun _ _ => rfl) (fun _ _ => rfl) x0 x1 r d

/-- What point `t` writes back through window 4 is block `t` of the product. -/
theorem flushed0_4_eq (c : Dev nD) (t : Fin cfg0.N) :
    (dat0 V c).flushed 4 t = ((cfg0.win 4).blk t).view.read (Elt Ideal) (mm (V c main_v0) (V c main_v1)) := by
  show (cfg0.win 4).cut (grid0.coords t) ((dat0 V c).after 4 t) = _
  rw [after0_4]
  unfold out0_4
  rw [View.canon_unit_zero hz2]
  simp only [View.ld_unit_zero (S := S1024x1024) hz2, View.ld_unit_zero (S := S1024x64) hz2]
  obtain ⟨e0, e1, e2, e3, e4, e5⟩ := idx_facts0_4 t
  funext j
  obtain ⟨r, d, rfl⟩ : ∃ (r : Fin 1024) (d : Fin 64), j = ix2 r d := ⟨j 0, j 1, eq_ix2 j⟩
  show k0_pay2 (F := Ideal) (iblk0 V c 0 t) (iblk0 V c 1 t) (ix2 r d) = mm (V c main_v0) (V c main_v1) (((cfg0.win 4).blk t).view.emb (ix2 r d))
  refine (pay_w4_at _ _ r d).trans ?_
  unfold mm
  refine Finset.sum_congr rfl fun k _ => ?_
  have h0 : iblk0 V c 0 t (ix2 r k) = V c main_v0 (ix2 ((((cfg0.win 4).blk t).view.emb (ix2 r d)) 0) k) := by
    show V c main_v0 (((cfg0.win 0).blk t).view.emb (ix2 r k)) = _
    refine congrArg (V c main_v0) (funext fun a => Fin.ext ?_)
    match a with
    | ⟨0, _⟩ => show win0_0.index t (0 : Fin 2) * 1024 + 1 * r.val = win0_4.index t (0 : Fin 2) * 1024 + 1 * r.val; omega
    | ⟨1, _⟩ => show win0_0.index t (1 : Fin 2) * 1024 + 1 * k.val = k.val; omega
  have h1 : iblk0 V c 1 t (ix2 k d) = V c main_v1 (ix2 k ((((cfg0.win 4).blk t).view.emb (ix2 r d)) 1)) := by
    show V c main_v1 (((cfg0.win 1).blk t).view.emb (ix2 k d)) = _
    refine congrArg (V c main_v1) (funext fun a => Fin.ext ?_)
    match a with
    | ⟨0, _⟩ => show win0_1.index t (0 : Fin 2) * 1024 + 1 * k.val = k.val; omega
    | ⟨1, _⟩ => show win0_1.index t (1 : Fin 2) * 64 + 1 * d.val = win0_4.index t (1 : Fin 2) * 64 + 1 * d.val; omega
  rw [h0, h1]

/-- An index of the array is in point `t`'s block iff each coordinate is in the block's range on its axis. -/
theorem mem_blk0_4 (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v4_0).slice (win0_4.rect t)).set ↔ _
  rw [View.set_slice_whole, Rect.mem_set_unit]
  exact Iff.rfl

/-- Every index of the array is in some point's block: row `r` in the block of point `r / 1024`. -/
theorem cover0_4' (i : S8192x64.Idx) :
    ∃ t : Fin cfg0.N, (cfg0.win 4).flush t = true ∧ i ∈ ((cfg0.win 4).blk t).view.set := by
  have hi0 : (i 0).val < 8192 := (i 0).isLt
  have hi1 : (i 1).val < 64 := (i 1).isLt
  have hN : cfg0.N = 8 := N_0
  let t : Fin cfg0.N := ⟨(i 0).val / 1024, by rw [hN]; omega⟩
  obtain ⟨e0, e1, e2, e3, e4, e5⟩ := idx_facts0_4 t
  have ht : t.val = (i 0).val / 1024 := rfl
  refine ⟨t, flush0_4 t, ?_⟩
  rw [mem_blk0_4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 64 ≤ (i 1).val ∧ (i 1).val < win0_4.index t (1 : Fin 2) * 64 + 64; omega

/-- The array after the region: the product. -/
theorem final0_4 (c : Dev nD) : (dat0 V c).arrAt 4 cfg0.N = mm (V c main_v0) (V c main_v1) :=
  (dat0 V c).arrAt_eq_of_cover 4 (mm (V c main_v0) (V c main_v1)) (fun t _ => flushed0_4_eq V c t) cover0_4'

/-- The printed index maps over the grid: the operand's and the result's blocks are at row-block `t`, column-block 0; the weights' block is the whole array. -/
theorem idx_facts0_5 : ∀ t : Fin cfg0.N, win0_0.index t (0 : Fin 2) = t.val
    ∧ win0_0.index t (1 : Fin 2) = 0
    ∧ win0_2.index t (0 : Fin 2) = 0
    ∧ win0_2.index t (1 : Fin 2) = 0
    ∧ win0_5.index t (0 : Fin 2) = t.val
    ∧ win0_5.index t (1 : Fin 2) = 0 :=
  (by decide +kernel : ∀ t : Fin grid0.N, _)

/-- A block's product at row `r`, column `d` (window 5's store). -/
theorem pay_w5_at (x0 : Vec Ideal S1024x1024 .f32) (x1 : Vec Ideal S1024x64 .f32) (r : Fin 1024) (d : Fin 64) :
    k0_pay3 (F := Ideal) x0 x1 (ix2 r d) = ∑ c : Fin 1024, x0 (ix2 r c) * x1 (ix2 c d) := by
  unfold k0_pay3 k0_pay1
  simp only [shapeCast_self]
  exact matmul_zero_rows dot_S1024x1024_S1024x64_S1024x64_1_0_0_1_n_n none rfl rfl (fun _ _ => rfl) (fun _ _ => rfl)
    (fun _ _ => rfl) (fun _ _ => rfl) x0 x1 r d

/-- What point `t` writes back through window 5 is block `t` of the product. -/
theorem flushed0_5_eq (c : Dev nD) (t : Fin cfg0.N) :
    (dat0 V c).flushed 5 t = ((cfg0.win 5).blk t).view.read (Elt Ideal) (mm (V c main_v0) (V c main_v2)) := by
  show (cfg0.win 5).cut (grid0.coords t) ((dat0 V c).after 5 t) = _
  rw [after0_5]
  unfold out0_5
  rw [View.canon_unit_zero hz2]
  simp only [View.ld_unit_zero (S := S1024x1024) hz2, View.ld_unit_zero (S := S1024x64) hz2]
  obtain ⟨e0, e1, e2, e3, e4, e5⟩ := idx_facts0_5 t
  funext j
  obtain ⟨r, d, rfl⟩ : ∃ (r : Fin 1024) (d : Fin 64), j = ix2 r d := ⟨j 0, j 1, eq_ix2 j⟩
  show k0_pay3 (F := Ideal) (iblk0 V c 0 t) (iblk0 V c 2 t) (ix2 r d) = mm (V c main_v0) (V c main_v2) (((cfg0.win 5).blk t).view.emb (ix2 r d))
  refine (pay_w5_at _ _ r d).trans ?_
  unfold mm
  refine Finset.sum_congr rfl fun k _ => ?_
  have h0 : iblk0 V c 0 t (ix2 r k) = V c main_v0 (ix2 ((((cfg0.win 5).blk t).view.emb (ix2 r d)) 0) k) := by
    show V c main_v0 (((cfg0.win 0).blk t).view.emb (ix2 r k)) = _
    refine congrArg (V c main_v0) (funext fun a => Fin.ext ?_)
    match a with
    | ⟨0, _⟩ => show win0_0.index t (0 : Fin 2) * 1024 + 1 * r.val = win0_5.index t (0 : Fin 2) * 1024 + 1 * r.val; omega
    | ⟨1, _⟩ => show win0_0.index t (1 : Fin 2) * 1024 + 1 * k.val = k.val; omega
  have h1 : iblk0 V c 2 t (ix2 k d) = V c main_v2 (ix2 k ((((cfg0.win 5).blk t).view.emb (ix2 r d)) 1)) := by
    show V c main_v2 (((cfg0.win 2).blk t).view.emb (ix2 k d)) = _
    refine congrArg (V c main_v2) (funext fun a => Fin.ext ?_)
    match a with
    | ⟨0, _⟩ => show win0_2.index t (0 : Fin 2) * 1024 + 1 * k.val = k.val; omega
    | ⟨1, _⟩ => show win0_2.index t (1 : Fin 2) * 64 + 1 * d.val = win0_5.index t (1 : Fin 2) * 64 + 1 * d.val; omega
  rw [h0, h1]

/-- An index of the array is in point `t`'s block iff each coordinate is in the block's range on its axis. -/
theorem mem_blk0_5 (t : Fin cfg0.N) (i : S8192x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v4_1).slice (win0_5.rect t)).set ↔ _
  rw [View.set_slice_whole, Rect.mem_set_unit]
  exact Iff.rfl

/-- Every index of the array is in some point's block: row `r` in the block of point `r / 1024`. -/
theorem cover0_5' (i : S8192x64.Idx) :
    ∃ t : Fin cfg0.N, (cfg0.win 5).flush t = true ∧ i ∈ ((cfg0.win 5).blk t).view.set := by
  have hi0 : (i 0).val < 8192 := (i 0).isLt
  have hi1 : (i 1).val < 64 := (i 1).isLt
  have hN : cfg0.N = 8 := N_0
  let t : Fin cfg0.N := ⟨(i 0).val / 1024, by rw [hN]; omega⟩
  obtain ⟨e0, e1, e2, e3, e4, e5⟩ := idx_facts0_5 t
  have ht : t.val = (i 0).val / 1024 := rfl
  refine ⟨t, flush0_5 t, ?_⟩
  rw [mem_blk0_5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 64 ≤ (i 1).val ∧ (i 1).val < win0_5.index t (1 : Fin 2) * 64 + 64; omega

/-- The array after the region: the product. -/
theorem final0_5 (c : Dev nD) : (dat0 V c).arrAt 5 cfg0.N = mm (V c main_v0) (V c main_v2) :=
  (dat0 V c).arrAt_eq_of_cover 5 (mm (V c main_v0) (V c main_v2)) (fun t _ => flushed0_5_eq V c t) cover0_5'

/-- The printed index maps over the grid: the operand's and the result's blocks are at row-block `t`, column-block 0; the weights' block is the whole array. -/
theorem idx_facts0_6 : ∀ t : Fin cfg0.N, win0_0.index t (0 : Fin 2) = t.val
    ∧ win0_0.index t (1 : Fin 2) = 0
    ∧ win0_3.index t (0 : Fin 2) = 0
    ∧ win0_3.index t (1 : Fin 2) = 0
    ∧ win0_6.index t (0 : Fin 2) = t.val
    ∧ win0_6.index t (1 : Fin 2) = 0 :=
  (by decide +kernel : ∀ t : Fin grid0.N, _)

/-- A block's product at row `r`, column `d` (window 6's store). -/
theorem pay_w6_at (x0 : Vec Ideal S1024x1024 .f32) (x1 : Vec Ideal S1024x64 .f32) (r : Fin 1024) (d : Fin 64) :
    k0_pay4 (F := Ideal) x0 x1 (ix2 r d) = ∑ c : Fin 1024, x0 (ix2 r c) * x1 (ix2 c d) := by
  unfold k0_pay4 k0_pay1
  simp only [shapeCast_self]
  exact matmul_zero_rows dot_S1024x1024_S1024x64_S1024x64_1_0_0_1_n_n none rfl rfl (fun _ _ => rfl) (fun _ _ => rfl)
    (fun _ _ => rfl) (fun _ _ => rfl) x0 x1 r d

/-- What point `t` writes back through window 6 is block `t` of the product. -/
theorem flushed0_6_eq (c : Dev nD) (t : Fin cfg0.N) :
    (dat0 V c).flushed 6 t = ((cfg0.win 6).blk t).view.read (Elt Ideal) (mm (V c main_v0) (V c main_v3)) := by
  show (cfg0.win 6).cut (grid0.coords t) ((dat0 V c).after 6 t) = _
  rw [after0_6]
  unfold out0_6
  rw [View.canon_unit_zero hz2]
  simp only [View.ld_unit_zero (S := S1024x1024) hz2, View.ld_unit_zero (S := S1024x64) hz2]
  obtain ⟨e0, e1, e2, e3, e4, e5⟩ := idx_facts0_6 t
  funext j
  obtain ⟨r, d, rfl⟩ : ∃ (r : Fin 1024) (d : Fin 64), j = ix2 r d := ⟨j 0, j 1, eq_ix2 j⟩
  show k0_pay4 (F := Ideal) (iblk0 V c 0 t) (iblk0 V c 3 t) (ix2 r d) = mm (V c main_v0) (V c main_v3) (((cfg0.win 6).blk t).view.emb (ix2 r d))
  refine (pay_w6_at _ _ r d).trans ?_
  unfold mm
  refine Finset.sum_congr rfl fun k _ => ?_
  have h0 : iblk0 V c 0 t (ix2 r k) = V c main_v0 (ix2 ((((cfg0.win 6).blk t).view.emb (ix2 r d)) 0) k) := by
    show V c main_v0 (((cfg0.win 0).blk t).view.emb (ix2 r k)) = _
    refine congrArg (V c main_v0) (funext fun a => Fin.ext ?_)
    match a with
    | ⟨0, _⟩ => show win0_0.index t (0 : Fin 2) * 1024 + 1 * r.val = win0_6.index t (0 : Fin 2) * 1024 + 1 * r.val; omega
    | ⟨1, _⟩ => show win0_0.index t (1 : Fin 2) * 1024 + 1 * k.val = k.val; omega
  have h1 : iblk0 V c 3 t (ix2 k d) = V c main_v3 (ix2 k ((((cfg0.win 6).blk t).view.emb (ix2 r d)) 1)) := by
    show V c main_v3 (((cfg0.win 3).blk t).view.emb (ix2 k d)) = _
    refine congrArg (V c main_v3) (funext fun a => Fin.ext ?_)
    match a with
    | ⟨0, _⟩ => show win0_3.index t (0 : Fin 2) * 1024 + 1 * k.val = k.val; omega
    | ⟨1, _⟩ => show win0_3.index t (1 : Fin 2) * 64 + 1 * d.val = win0_6.index t (1 : Fin 2) * 64 + 1 * d.val; omega
  rw [h0, h1]

/-- An index of the array is in point `t`'s block iff each coordinate is in the block's range on its axis. -/
theorem mem_blk0_6 (t : Fin cfg0.N) (i : S8192x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v4_2).slice (win0_6.rect t)).set ↔ _
  rw [View.set_slice_whole, Rect.mem_set_unit]
  exact Iff.rfl

/-- Every index of the array is in some point's block: row `r` in the block of point `r / 1024`. -/
theorem cover0_6' (i : S8192x64.Idx) :
    ∃ t : Fin cfg0.N, (cfg0.win 6).flush t = true ∧ i ∈ ((cfg0.win 6).blk t).view.set := by
  have hi0 : (i 0).val < 8192 := (i 0).isLt
  have hi1 : (i 1).val < 64 := (i 1).isLt
  have hN : cfg0.N = 8 := N_0
  let t : Fin cfg0.N := ⟨(i 0).val / 1024, by rw [hN]; omega⟩
  obtain ⟨e0, e1, e2, e3, e4, e5⟩ := idx_facts0_6 t
  have ht : t.val = (i 0).val / 1024 := rfl
  refine ⟨t, flush0_6 t, ?_⟩
  rw [mem_blk0_6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 64 ≤ (i 1).val ∧ (i 1).val < win0_6.index t (1 : Fin 2) * 64 + 64; omega

/-- The array after the region: the product. -/
theorem final0_6 (c : Dev nD) : (dat0 V c).arrAt 6 cfg0.N = mm (V c main_v0) (V c main_v3) :=
  (dat0 V c).arrAt_eq_of_cover 6 (mm (V c main_v0) (V c main_v3)) (fun t _ => flushed0_6_eq V c t) cover0_6'

end Cert.KernelIdeal.KVal

end
-- ==== Proof.AttnSpec.lean ====
import Idealize.ShloMosaic.PureOps.Ideal
import Idealize.ShloMosaic.PureOps.Ideal.Laws
import Idealize.ShloMosaic.Lib.ValueIdx

/-!
# Causal softmax attention over the extended reals: the two spellings and the law that joins them

For queries, keys and values `q k v : [4, 2048, 64]` the score of query row `t` against key row `j` is
`(∑ d, q b t d · k b j d) · c` when `j ≤ t` and `-∞` otherwise. A row of scores `s` is normalised by its maximum
`M` and by `L = ∑ j, exp (s j - M)`; the result row is `∑ j, w j · v b j d`.

One program weights by `exp (s j - M) · (1 / L)`, the other by `exp (s j - max (-∞) M) / (0 + L)`. On the extended
reals `x / y = x · y⁻¹` as soon as `y ≠ 0`, and `1 · y⁻¹ = y⁻¹`, so the two weights agree exactly when `L ≠ 0`.
`L` is a sum of non-negative terms, so it is nonzero once one term is positive: the diagonal score `j = t` is
never masked, it is a real number when the inputs are, every score is below `+∞`, hence `M` is real and
`exp (s t - M)` is a positive real.
-/

noncomputable section

namespace Cert.AttnSpec

open Idealize.ShloMosaic

/-- A [4, 2048, 64] array by coordinates. -/
abbrev QKV := Fin 4 → Fin 2048 → Fin 64 → EReal

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.zero : IsReal 0 := ⟨0, rfl⟩

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem IsReal.sum {ι : Type*} (S : Finset ι) (f : ι → EReal) (h : ∀ i, IsReal (f i)) : IsReal (∑ i ∈ S, f i) := by
  classical
  induction S using Finset.induction_on with
  | empty => simpa using IsReal.zero
  | insert a S ha ih => rw [Finset.sum_insert ha]; exact (h a).add ih

/-- The scale `1/32` as the program spells it is a real number. -/
theorem scale_isReal : IsReal (Ideal.ofBits .f32 0x3D000000#32) := by
  refine ⟨(1 / 32 : ℝ), ?_⟩
  simp [Ideal.ofBits, Ideal.ieee, -EReal.coe_mul]
  norm_num

theorem one_eq : Ideal.ofBits .f32 0x3F800000#32 = 1 := by
  simp [Ideal.ofBits, Ideal.ieee, -EReal.coe_mul]; norm_num

theorem neg_inf_eq : Ideal.ofBits .f32 0xFF800000#32 = ⊥ := by
  simp [Ideal.ofBits, Ideal.ieee]

/-- A projection `x · wᵀ`: `[4, 2048, 1024] × [64, 1024] → [4, 2048, 64]`. -/
def proj (x : Fin 4 → Fin 2048 → Fin 1024 → EReal) (w : Fin 64 → Fin 1024 → EReal) : QKV :=
  fun b t d => ∑ c : Fin 1024, x b t c * w d c

theorem proj_isReal {x : Fin 4 → Fin 2048 → Fin 1024 → EReal} {w : Fin 64 → Fin 1024 → EReal}
    (hx : ∀ b t c, IsReal (x b t c)) (hw : ∀ d c, IsReal (w d c)) (b : Fin 4) (t : Fin 2048) (d : Fin 64) :
    IsReal (proj x w b t d) :=
  IsReal.sum _ _ fun c => (hx b t c).mul (hw d c)

/-- The causally masked, scaled score of query row `t` against key row `j`. -/
def score (q k : QKV) (b : Fin 4) (t j : Fin 2048) : EReal :=
  if j.val ≤ t.val then (∑ d : Fin 64, q b t d * k b j d) * Ideal.ofBits .f32 0x3D000000#32 else ⊥

/-- A row's maximum, from `-∞`. -/
def rowMax (s : Fin 2048 → EReal) : EReal := (Finset.univ : Finset (Fin 2048)).fold max ⊥ s

/-- The row sum of the shifted exponentials. -/
def rowSum (s : Fin 2048 → EReal) (M : EReal) : EReal := ∑ j : Fin 2048, Ideal.exp (s j - M)

/-- The result with the weights `exp (s j - M) · (1 / L)`. -/
def outMul (q k v : QKV) (b : Fin 4) (t : Fin 2048) (d : Fin 64) : EReal :=
  ∑ j : Fin 2048, (Ideal.exp (score q k b t j - rowMax (score q k b t))
      * Ideal.div 1 (rowSum (score q k b t) (rowMax (score q k b t)))) * v b j d

/-- The result with the weights `exp (s j - max (-∞) M) / (0 + L)`. -/
def outDiv (q k v : QKV) (b : Fin 4) (t : Fin 2048) (d : Fin 64) : EReal :=
  ∑ j : Fin 2048, Ideal.div (Ideal.exp (score q k b t j - max ⊥ (rowMax (score q k b t))))
      (0 + rowSum (score q k b t) (max ⊥ (rowMax (score q k b t)))) * v b j d

theorem exp_nonneg (x : EReal) : 0 ≤ Ideal.exp x := by
  induction x using EReal.rec with
  | bot => simp
  | coe r => simp only [Ideal.exp_coe]; exact_mod_cast (Real.exp_pos r).le
  | top => simp

/-- On a row with no `+∞` and a real entry the sum of shifted exponentials is not zero. -/
theorem rowSum_ne_zero (s : Fin 2048 → EReal) (htop : ∀ j, s j ≠ ⊤) (j0 : Fin 2048) (h0 : IsReal (s j0)) :
    rowSum s (rowMax s) ≠ 0 := by
  have hMtop : rowMax s ≠ ⊤ := by
    have : rowMax s < ⊤ := by
      unfold rowMax
      rw [Finset.fold_max_lt]
      exact ⟨bot_lt_top, fun j _ => lt_top_iff_ne_top.mpr (htop j)⟩
    exact this.ne
  have hle : s j0 ≤ rowMax s := by
    unfold rowMax
    rw [Finset.le_fold_max]
    exact Or.inr ⟨j0, Finset.mem_univ _, le_rfl⟩
  have hMbot : rowMax s ≠ ⊥ := fun e => h0.ne_bot (le_bot_iff.mp (e ▸ hle))
  obtain ⟨a, ha⟩ := h0
  obtain ⟨m, hm⟩ : ∃ m : ℝ, rowMax s = (m : EReal) := ⟨(rowMax s).toReal, (EReal.coe_toReal hMtop hMbot).symm⟩
  have hpos : 0 < Ideal.exp (s j0 - rowMax s) := by
    rw [ha, hm, ← EReal.coe_sub, Ideal.exp_coe]
    exact_mod_cast Real.exp_pos _
  have hge : Ideal.exp (s j0 - rowMax s) ≤ rowSum s (rowMax s) := by
    unfold rowSum
    exact Finset.single_le_sum (f := fun j => Ideal.exp (s j - rowMax s)) (fun j _ => exp_nonneg _) (Finset.mem_univ j0)
  exact (lt_of_lt_of_le hpos hge).ne'

/-- The two weights agree where the row sum is not zero. -/
theorem weight_eq (e L : EReal) (hL : L ≠ 0) : e * Ideal.div 1 L = Ideal.div e (0 + L) := by
  rw [zero_add]
  unfold Ideal.div
  rw [if_neg hL, if_neg hL, one_mul]

/-- With real queries and keys the two spellings of the attention output agree. -/
theorem outMul_eq_outDiv (q k v : QKV) (hq : ∀ b t d, IsReal (q b t d)) (hk : ∀ b t d, IsReal (k b t d))
    (b : Fin 4) (t : Fin 2048) (d : Fin 64) : outMul q k v b t d = outDiv q k v b t d := by
  have hsc : ∀ j : Fin 2048, j.val ≤ t.val → IsReal (score q k b t j) := fun j hj => by
    unfold score; rw [if_pos hj]
    exact (IsReal.sum _ _ fun dd => (hq b t dd).mul (hk b j dd)).mul scale_isReal
  have htop : ∀ j, score q k b t j ≠ ⊤ := fun j => by
    by_cases hj : j.val ≤ t.val
    · exact (hsc j hj).ne_top
    · unfold score; rw [if_neg hj]; exact bot_ne_top
  have hL := rowSum_ne_zero (score q k b t) htop t (hsc t le_rfl)
  unfold outMul outDiv
  rw [max_eq_right (bot_le : (⊥ : EReal) ≤ rowMax (score q k b t))]
  exact Finset.sum_congr rfl fun j _ => by rw [weight_eq _ _ hL]

/-! ## The two outputs as functions of the four argument arrays -/

/-- The activations `[4, 2048, 1024]` by coordinates. -/
def arrX (x : (⟨3, ![4, 2048, 1024]⟩ : Shape).Idx → EReal) : Fin 4 → Fin 2048 → Fin 1024 → EReal :=
  fun b t c => x (ValueIdx.ix3 b t c)

/-- A weight matrix `[64, 1024]` by coordinates. -/
def arrW (w : (⟨2, ![64, 1024]⟩ : Shape).Idx → EReal) : Fin 64 → Fin 1024 → EReal :=
  fun d c => w (ValueIdx.ix2 d c)

/-- Attention over the three projections, weights `exp · (1 / L)`. -/
def mulOut (x0 : (⟨3, ![4, 2048, 1024]⟩ : Shape).Idx → EReal) (x1 x2 x3 : (⟨2, ![64, 1024]⟩ : Shape).Idx → EReal) :
    Fin 4 → Fin 2048 → Fin 64 → EReal :=
  outMul (proj (arrX x0) (arrW x1)) (proj (arrX x0) (arrW x2)) (proj (arrX x0) (arrW x3))

/-- Attention over the three projections, weights `exp / (0 + L)`. -/
def divOut (x0 : (⟨3, ![4, 2048, 1024]⟩ : Shape).Idx → EReal) (x1 x2 x3 : (⟨2, ![64, 1024]⟩ : Shape).Idx → EReal) :
    Fin 4 → Fin 2048 → Fin 64 → EReal :=
  outDiv (proj (arrX x0) (arrW x1)) (proj (arrX x0) (arrW x2)) (proj (arrX x0) (arrW x3))

/-- With real activations and real query and key weights the two agree. -/
theorem mulOut_eq_divOut (x0 : (⟨3, ![4, 2048, 1024]⟩ : Shape).Idx → EReal) (x1 x2 x3 : (⟨2, ![64, 1024]⟩ : Shape).Idx → EReal)
    (h0 : ∀ i, IsReal (x0 i)) (h1 : ∀ i, IsReal (x1 i)) (h2 : ∀ i, IsReal (x2 i))
    (b : Fin 4) (t : Fin 2048) (d : Fin 64) : mulOut x0 x1 x2 x3 b t d = divOut x0 x1 x2 x3 b t d :=
  outMul_eq_outDiv _ _ _ (proj_isReal (fun _ _ _ => h0 _) (fun _ _ => h1 _)) (proj_isReal (fun _ _ _ => h0 _) (fun _ _ => h2 _)) b t d

end Cert.AttnSpec

end
-- ==== Proof.KernelQKV.lean ====
import proofs.«142069_j78125455115060_2_alg».proof.Proof.KernelProj
import proofs.«142069_j78125455115060_2_alg».proof.Proof.AttnSpec

/-!
# The three projections as the attention region finds them

The first region's operands are the activations reshaped `[4, 2048, 1024] → [8192, 1024]` and the three weight matrices
transposed `[64, 1024] → [1024, 64]`; its results `[8192, 64]` are reshaped to `[4, 2048, 64]`. Read at `(b, t, d)`,
each array the attention region is entered with is `∑ c, x (b, t, c) · w (d, c)`.
-/

set_option maxRecDepth 16384

noncomputable section

namespace Cert.KernelIdeal.KVal

open Cert.KernelIdeal Cert.KernelIdeal.Gen Cert.KernelIdeal.GenP Cert.AttnSpec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The reshaped activations the first region is entered with. -/
theorem V1_v0 (c : Dev nD) : (V1 m ρ c main_v0 : S8192x1024.Idx → Elt Ideal .f32)
    = shapeCast S8192x1024 (m ((c : Thread nD τ).loc main_arg0)) shapeCasts_S4x2048x1024_S8192x1024 := by
  show StableHlo.after hostOps0 (W0 m ρ c) (Proc.devRef .tc main_v0) = _
  after_results <;> rfl

/-- The product of the reshaped activations with a transposed weight matrix, read at row `b·2048 + t`, column `d`, is the
    projection `∑ c, x (b, t, c) · w (d, c)`. -/
theorem mm_proj (x : S4x2048x1024.Idx → Elt Ideal .f32) (wm : S64x1024.Idx → Elt Ideal .f32)
    (b : Fin 4) (t : Fin 2048) (d : Fin 64) (R : Fin 8192) (hR : R.val = b.val * 2048 + t.val) :
    mm (shapeCast S8192x1024 x shapeCasts_S4x2048x1024_S8192x1024)
        (transpose S1024x64 [1, 0] wm transposes_S64x1024_S1024x64_1_0) (ix2 R d)
      = proj (arrX x) (arrW wm) b t d := by
  show (∑ k : Fin 1024, shapeCast S8192x1024 x shapeCasts_S4x2048x1024_S8192x1024 (ix2 R k)
      * transpose S1024x64 [1, 0] wm transposes_S64x1024_S1024x64_1_0 (ix2 k d))
    = ∑ k : Fin 1024, x (ix3 b t k) * wm (ix2 d k)
  refine Finset.sum_congr rfl fun k _ => ?_
  rw [shapeCast_mergeRows_apply x shapeCasts_S4x2048x1024_S8192x1024 b t R k hR,
    transpose_apply [1, 0] wm transposes_S64x1024_S1024x64_1_0 (ix2 k d) (ix2 d k)
      (fun a => match a with | ⟨0, _⟩ => rfl | ⟨1, _⟩ => rfl)]

/-- The transposed weights of the queries. -/
theorem V1_main_v1 (c : Dev nD) : (V1 m ρ c main_v1 : S1024x64.Idx → Elt Ideal .f32)
    = transpose S1024x64 [1, 0] (m ((c : Thread nD τ).loc main_arg1)) transposes_S64x1024_S1024x64_1_0 := by
  show StableHlo.after hostOps0 (W0 m ρ c) (Proc.devRef .tc main_v1) = _
  after_results <;> rfl

/-- The first region's result array of the queries: the product of the reshaped activations with the transposed weights. -/
theorem W2_main_v4_0 (c : Dev nD) : (W2 m ρ c (Proc.devRef .tc main_v4_0) : S8192x64.Idx → Elt Ideal .f32)
    = mm (V1 m ρ c main_v0) (V1 m ρ c main_v1) :=
  (W2_arr m ρ c 4).trans (final0_4 (V1 m ρ) c)

/-- The array of the queries the attention region is entered with: the result array reshaped. -/
theorem V3_main_v5 (c : Dev nD) : (V3 m ρ c main_v5 : S4x2048x64.Idx → Elt Ideal .f32)
    = shapeCast S4x2048x64 (W2 m ρ c (Proc.devRef .tc main_v4_0)) shapeCasts_S8192x64_S4x2048x64 := by
  show StableHlo.after hostOps1 (W2 m ρ c) (Proc.devRef .tc main_v5) = _
  after_results <;> rfl

/-- Read at `(b, t, d)` it is the projection `∑ c, x (b, t, c) · w (d, c)`. -/
theorem V3_main_v5_apply (c : Dev nD) (b : Fin 4) (t : Fin 2048) (d : Fin 64) :
    (V3 m ρ c main_v5 : S4x2048x64.Idx → Elt Ideal .f32) (ix3 b t d)
      = proj (arrX (m ((c : Thread nD τ).loc main_arg0))) (arrW (m ((c : Thread nD τ).loc main_arg1))) b t d := by
  have hR : b.val * 2048 + t.val < 8192 := by have := b.isLt; have := t.isLt; omega
  have e1 : (V3 m ρ c main_v5 : S4x2048x64.Idx → Elt Ideal .f32) (ix3 b t d)
      = mm (V1 m ρ c main_v0) (V1 m ρ c main_v1) (ix2 (⟨b.val * 2048 + t.val, hR⟩ : Fin 8192) d) := by
    rw [V3_main_v5, shapeCast_splitRows_apply _ _ b t (⟨b.val * 2048 + t.val, hR⟩ : Fin 8192) d rfl, W2_main_v4_0]
  refine e1.trans ?_
  rw [V1_v0, V1_main_v1]
  exact mm_proj _ _ b t d _ rfl

/-- The transposed weights of the keys. -/
theorem V1_main_v2 (c : Dev nD) : (V1 m ρ c main_v2 : S1024x64.Idx → Elt Ideal .f32)
    = transpose S1024x64 [1, 0] (m ((c : Thread nD τ).loc main_arg2)) transposes_S64x1024_S1024x64_1_0 := by
  show StableHlo.after hostOps0 (W0 m ρ c) (Proc.devRef .tc main_v2) = _
  after_results <;> rfl

/-- The first region's result array of the keys: the product of the reshaped activations with the transposed weights. -/
theorem W2_main_v4_1 (c : Dev nD) : (W2 m ρ c (Proc.devRef .tc main_v4_1) : S8192x64.Idx → Elt Ideal .f32)
    = mm (V1 m ρ c main_v0) (V1 m ρ c main_v2) :=
  (W2_arr m ρ c 5).trans (final0_5 (V1 m ρ) c)

/-- The array of the keys the attention region is entered with: the result array reshaped. -/
theorem V3_main_v6 (c : Dev nD) : (V3 m ρ c main_v6 : S4x2048x64.Idx → Elt Ideal .f32)
    = shapeCast S4x2048x64 (W2 m ρ c (Proc.devRef .tc main_v4_1)) shapeCasts_S8192x64_S4x2048x64 := by
  show StableHlo.after hostOps1 (W2 m ρ c) (Proc.devRef .tc main_v6) = _
  after_results <;> rfl

/-- Read at `(b, t, d)` it is the projection `∑ c, x (b, t, c) · w (d, c)`. -/
theorem V3_main_v6_apply (c : Dev nD) (b : Fin 4) (t : Fin 2048) (d : Fin 64) :
    (V3 m ρ c main_v6 : S4x2048x64.Idx → Elt Ideal .f32) (ix3 b t d)
      = proj (arrX (m ((c : Thread nD τ).loc main_arg0))) (arrW (m ((c : Thread nD τ).loc main_arg2))) b t d := by
  have hR : b.val * 2048 + t.val < 8192 := by have := b.isLt; have := t.isLt; omega
  have e1 : (V3 m ρ c main_v6 : S4x2048x64.Idx → Elt Ideal .f32) (ix3 b t d)
      = mm (V1 m ρ c main_v0) (V1 m ρ c main_v2) (ix2 (⟨b.val * 2048 + t.val, hR⟩ : Fin 8192) d) := by
    rw [V3_main_v6, shapeCast_splitRows_apply _ _ b t (⟨b.val * 2048 + t.val, hR⟩ : Fin 8192) d rfl, W2_main_v4_1]
  refine e1.trans ?_
  rw [V1_v0, V1_main_v2]
  exact mm_proj _ _ b t d _ rfl

/-- The transposed weights of the values. -/
theorem V1_main_v3 (c : Dev nD) : (V1 m ρ c main_v3 : S1024x64.Idx → Elt Ideal .f32)
    = transpose S1024x64 [1, 0] (m ((c : Thread nD τ).loc main_arg3)) transposes_S64x1024_S1024x64_1_0 := by
  show StableHlo.after hostOps0 (W0 m ρ c) (Proc.devRef .tc main_v3) = _
  after_results <;> rfl

/-- The first region's result array of the values: the product of the reshaped activations with the transposed weights. -/
theorem W2_main_v4_2 (c : Dev nD) : (W2 m ρ c (Proc.devRef .tc main_v4_2) : S8192x64.Idx → Elt Ideal .f32)
    = mm (V1 m ρ c main_v0) (V1 m ρ c main_v3) :=
  (W2_arr m ρ c 6).trans (final0_6 (V1 m ρ) c)

/-- The array of the values the attention region is entered with: the result array reshaped. -/
theorem V3_main_v7 (c : Dev nD) : (V3 m ρ c main_v7 : S4x2048x64.Idx → Elt Ideal .f32)
    = shapeCast S4x2048x64 (W2 m ρ c (Proc.devRef .tc main_v4_2)) shapeCasts_S8192x64_S4x2048x64 := by
  show StableHlo.after hostOps1 (W2 m ρ c) (Proc.devRef .tc main_v7) = _
  after_results <;> rfl

/-- Read at `(b, t, d)` it is the projection `∑ c, x (b, t, c) · w (d, c)`. -/
theorem V3_main_v7_apply (c : Dev nD) (b : Fin 4) (t : Fin 2048) (d : Fin 64) :
    (V3 m ρ c main_v7 : S4x2048x64.Idx → Elt Ideal .f32) (ix3 b t d)
      = proj (arrX (m ((c : Thread nD τ).loc main_arg0))) (arrW (m ((c : Thread nD τ).loc main_arg3))) b t d := by
  have hR : b.val * 2048 + t.val < 8192 := by have := b.isLt; have := t.isLt; omega
  have e1 : (V3 m ρ c main_v7 : S4x2048x64.Idx → Elt Ideal .f32) (ix3 b t d)
      = mm (V1 m ρ c main_v0) (V1 m ρ c main_v3) (ix2 (⟨b.val * 2048 + t.val, hR⟩ : Fin 8192) d) := by
    rw [V3_main_v7, shapeCast_splitRows_apply _ _ b t (⟨b.val * 2048 + t.val, hR⟩ : Fin 8192) d rfl, W2_main_v4_2]
  refine e1.trans ?_
  rw [V1_v0, V1_main_v3]
  exact mm_proj _ _ b t d _ rfl

end Cert.KernelIdeal.KVal

end
-- ==== Proof.KernelAttn.lean ====
import proofs.«142069_j78125455115060_2_alg».proof.Proof.FrameKI
import proofs.«142069_j78125455115060_2_alg».proof.Proof.AttnSpec
import Idealize.ShloMosaic.Lib.Pipeline.Value
import Idealize.ShloMosaic.Lib.ValueIdx

/-!
# The attention region's result array

The second region's grid is `[4, 2]`: point `(b, h)` reads rows `1024·h … 1024·h + 1023` of batch `b` of the queries and
the whole of batch `b` of the keys and of the values, and stores the same rows of batch `b` of the result. Given that
the body's payload at row `r`, column `d` of its block is causal softmax attention at `(b, 1024·h + r, d)` of the
arrays its blocks are cut from, every block written back is a block of one array-wide function, the blocks cover the
array, and so the array ends holding that function.
-/

set_option maxRecDepth 16384

noncomputable section

namespace Cert.KernelIdeal.KVal1

open Cert.KernelIdeal Cert.KernelIdeal.Gen Cert.KernelIdeal.GenP Cert.AttnSpec
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz3 : (![0, 0, 0] : Fin 3 → Nat) = fun _ => 0 := funext fun a => by fin_cases a <;> rfl

/-- A [4, 2048, 64] array by coordinates. -/
def arr3 (a : S4x2048x64.Idx → Elt Ideal .f32) : QKV := fun b t d => a (ix3 b t d)

/-- Causal softmax attention (weights exp · (1/L)) of three [4, 2048, 64] arrays, index by index. -/
def attnG (q k v : S4x2048x64.Idx → Elt Ideal .f32) : S4x2048x64.Idx → Elt Ideal .f32 :=
  fun i => outMul (arr3 q) (arr3 k) (arr3 v) (i 0) (i 1) (i 2)

/-- The statement of the payload lemma, as a proposition. -/
def PayAt : Prop := ∀ (i : grid1.Coords) (x0 : Vec Ideal S1x1024x64 .f32) (x1 x2 : Vec Ideal S1x2048x64 .f32) (q k v : QKV)
    (b : Fin 4) (t : Fin 2048) (r : Fin 1024) (d : Fin 64), t.val = (i 1).val * 1024 + r.val →
    (∀ dd : Fin 64, x0 (ix3 (0 : Fin 1) r dd) = q b t dd) → (∀ (j : Fin 2048) (dd : Fin 64), x1 (ix3 (0 : Fin 1) j dd) = k b j dd) →
    (∀ j : Fin 2048, x2 (ix3 (0 : Fin 1) j d) = v b j d) →
    k1_pay1 (F := Ideal) i x0 x1 x2 (ix3 (0 : Fin 1) r d) = outMul q k v b t d

/-- The printed index maps over the grid: the queries' and the result's blocks are at (b, h, 0), the keys' and the values'
    at (b, 0, 0), where (b, h) is the point; b is below 4 and h below 2. -/
theorem idx_facts1 : ∀ t : Fin cfg1.N,
    win1_0.index t (0 : Fin 3) = (grid1.coords t (0 : Fin 2)).val
    ∧ win1_0.index t (1 : Fin 3) = (grid1.coords t (1 : Fin 2)).val
    ∧ win1_0.index t (2 : Fin 3) = 0
    ∧ win1_1.index t (0 : Fin 3) = (grid1.coords t (0 : Fin 2)).val
    ∧ win1_1.index t (1 : Fin 3) = 0
    ∧ win1_1.index t (2 : Fin 3) = 0
    ∧ win1_2.index t (0 : Fin 3) = (grid1.coords t (0 : Fin 2)).val
    ∧ win1_2.index t (1 : Fin 3) = 0
    ∧ win1_2.index t (2 : Fin 3) = 0
    ∧ win1_3.index t (0 : Fin 3) = (grid1.coords t (0 : Fin 2)).val
    ∧ win1_3.index t (1 : Fin 3) = (grid1.coords t (1 : Fin 2)).val
    ∧ win1_3.index t (2 : Fin 3) = 0
    ∧ (grid1.coords t (0 : Fin 2)).val < 4
    ∧ (grid1.coords t (1 : Fin 2)).val < 2 :=
  (by decide +kernel : ∀ t : Fin grid1.N, _)

/-- Every block position (b, h, 0) of the result is some point's. -/
theorem cover_facts1 : ∀ (q0 : Fin 4) (q1 : Fin 2), ∃ t : Fin grid1.N,
    win1_3.index t (0 : Fin 3) = q0.val ∧ win1_3.index t (1 : Fin 3) = q1.val ∧ win1_3.index t (2 : Fin 3) = 0 := by
  decide +kernel

/-- What point `t` writes back through window 3 is its block of the attention of the three arrays. -/
theorem flushed1_3_eq (hpay : PayAt) (c : Dev nD) (t : Fin cfg1.N) :
    (dat1 V c).flushed 3 t = ((cfg1.win 3).blk t).view.read (Elt Ideal) (attnG (V c main_v5) (V c main_v6) (V c main_v7)) := by
  show (cfg1.win 3).cut (grid1.coords t) ((dat1 V c).after 3 t) = _
  rw [after1_3]
  unfold out1_3
  rw [View.canon_unit_zero hz3]
  simp only [View.ld_unit_zero (S := S1x1024x64) hz3, View.ld_unit_zero (S := S1x2048x64) hz3]
  obtain ⟨e00, e01, e02, e10, e11, e12, e20, e21, e22, e30, e31, e32, hb, hq⟩ := idx_facts1 t
  funext j
  obtain ⟨u, r, d, rfl⟩ : ∃ (u : Fin 1) (r : Fin 1024) (d : Fin 64), j = ix3 u r d := ⟨j 0, j 1, j 2, eq_ix3 j⟩
  obtain rfl : u = 0 := Subsingleton.elim _ _
  show k1_pay1 (F := Ideal) (grid1.coords t) (iblk1 V c 0 t) (iblk1 V c 1 t) (iblk1 V c 2 t) (ix3 (0 : Fin 1) r d)
    = attnG (V c main_v5) (V c main_v6) (V c main_v7) (((cfg1.win 3).blk t).view.emb (ix3 (0 : Fin 1) r d))
  have hr : r.val < 1024 := r.isLt
  obtain ⟨b, hbv⟩ : ∃ b : Fin 4, b.val = (grid1.coords t (0 : Fin 2)).val := ⟨⟨_, hb⟩, rfl⟩
  obtain ⟨tt, htt⟩ : ∃ tt : Fin 2048, tt.val = (grid1.coords t (1 : Fin 2)).val * 1024 + r.val := ⟨⟨_, by omega⟩, rfl⟩
  have h0 : ∀ dd : Fin 64, iblk1 V c 0 t (ix3 (0 : Fin 1) r dd) = arr3 (V c main_v5) b tt dd := fun dd => by
    show V c main_v5 (((cfg1.win 0).blk t).view.emb (ix3 (0 : Fin 1) r dd)) = V c main_v5 (ix3 b tt dd)
    refine congrArg (V c main_v5) (funext fun a => Fin.ext ?_)
    match a with
    | ⟨0, _⟩ => show win1_0.index t (0 : Fin 3) * 1 + 1 * 0 = b.val; omega
    | ⟨1, _⟩ => show win1_0.index t (1 : Fin 3) * 1024 + 1 * r.val = tt.val; omega
    | ⟨2, _⟩ => show win1_0.index t (2 : Fin 3) * 64 + 1 * dd.val = dd.val; omega
  have h1 : ∀ (j : Fin 2048) (dd : Fin 64), iblk1 V c 1 t (ix3 (0 : Fin 1) j dd) = arr3 (V c main_v6) b j dd := fun j dd => by
    show V c main_v6 (((cfg1.win 1).blk t).view.emb (ix3 (0 : Fin 1) j dd)) = V c main_v6 (ix3 b j dd)
    refine congrArg (V c main_v6) (funext fun a => Fin.ext ?_)
    match a with
    | ⟨0, _⟩ => show win1_1.index t (0 : Fin 3) * 1 + 1 * 0 = b.val; omega
    | ⟨1, _⟩ => show win1_1.index t (1 : Fin 3) * 2048 + 1 * j.val = j.val; omega
    | ⟨2, _⟩ => show win1_1.index t (2 : Fin 3) * 64 + 1 * dd.val = dd.val; omega
  have h2 : ∀ j : Fin 2048, iblk1 V c 2 t (ix3 (0 : Fin 1) j d) = arr3 (V c main_v7) b j d := fun j => by
    show V c main_v7 (((cfg1.win 2).blk t).view.emb (ix3 (0 : Fin 1) j d)) = V c main_v7 (ix3 b j d)
    refine congrArg (V c main_v7) (funext fun a => Fin.ext ?_)
    match a with
    | ⟨0, _⟩ => show win1_2.index t (0 : Fin 3) * 1 + 1 * 0 = b.val; omega
    | ⟨1, _⟩ => show win1_2.index t (1 : Fin 3) * 2048 + 1 * j.val = j.val; omega
    | ⟨2, _⟩ => show win1_2.index t (2 : Fin 3) * 64 + 1 * d.val = d.val; omega
  refine (hpay (grid1.coords t) _ _ _ (arr3 (V c main_v5)) (arr3 (V c main_v6)) (arr3 (V c main_v7)) b tt r d htt h0 h1 h2).trans ?_
  have he : ((cfg1.win 3).blk t).view.emb (ix3 (0 : Fin 1) r d) = ix3 b tt d := funext fun a => Fin.ext (by
    match a with
    | ⟨0, _⟩ => show win1_3.index t (0 : Fin 3) * 1 + 1 * 0 = b.val; omega
    | ⟨1, _⟩ => show win1_3.index t (1 : Fin 3) * 1024 + 1 * r.val = tt.val; omega
    | ⟨2, _⟩ => show win1_3.index t (2 : Fin 3) * 64 + 1 * d.val = d.val; omega)
  rw [he]
  rfl

/-- An index of the array is in point `t`'s block iff each coordinate is in the block's range on its axis. -/
theorem mem_blk1_3 (t : Fin cfg1.N) (i : S4x2048x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v8).slice (win1_3.rect t)).set ↔ _
  rw [View.set_slice_whole, Rect.mem_set_unit]
  exact Iff.rfl

/-- Every index of the array is in some point's block: (b, s, d) in the block of the point (b, s / 1024). -/
theorem cover1_3' (i : S4x2048x64.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 64 := (i 2).isLt
  obtain ⟨t, e0, e1, e2⟩ := cover_facts1 ⟨(i 0).val, hi0⟩ ⟨(i 1).val / 1024, by omega⟩
  have e0' : win1_3.index t (0 : Fin 3) = (i 0).val := e0
  have e1' : win1_3.index t (1 : Fin 3) = (i 1).val / 1024 := e1
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- The array after the region: the attention of the three arrays. -/
theorem final1_3 (hpay : PayAt) (c : Dev nD) :
    (dat1 V c).arrAt 3 cfg1.N = attnG (V c main_v5) (V c main_v6) (V c main_v7) :=
  (dat1 V c).arrAt_eq_of_cover 3 (attnG (V c main_v5) (V c main_v6) (V c main_v7)) (fun t _ => flushed1_3_eq V hpay c t) cover1_3'

end Cert.KernelIdeal.KVal1

end
-- ==== Proof.LibLayout3.lean ====
/-
  Layout operations at rank 3 read at an index written by coordinates, for any element type and any extents:
  a shape cast that appends a unit axis ([a,b] → [a,b,1]); a broadcast along a trailing unit axis
  ([a,b,1] → [a,b,c]) and along a leading unit axis ([1,b,c] → [a,b,c]); and, for a reduction over ONE axis,
  the index that a reduced index and a coordinate on the dropped axis name — the middle axis of a rank-3 array,
  the last axis of a rank-2 array.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Dropping the MIDDLE axis of `[a, b, c]`: the index over `(i, k)` whose middle coordinate is `d` is `(i, d, k)`. -/
theorem lift_mid_ix2 {a b c : ℕ} (h : (⟨3, ![a, b, c]⟩ : Shape).Reduces [1] (⟨2, ![a, c]⟩ : Shape)) (i : Fin a) (k : Fin c)
    (d : Fin ((⟨3, ![a, b, c]⟩ : Shape).size 1)) :
    h.lift (ix2 i k) d = ix3 i (⟨d.val, d.isLt⟩ : Fin b) k := by
  funext ax; apply Fin.ext
  fin_cases ax <;> rfl

/-- Dropping the LAST axis of `[a, b]`: the index over `i` whose last coordinate is `k` is `(i, k)`. -/
theorem lift_last_ix1 {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

end Idealize.ShloMosaic.ValueIdx
-- ==== Proof.AttnPayload.lean ====
import proofs.«142069_j78125455115060_2_alg».proof.Proof.Gen.KernelIdeal.Skeleton
import proofs.«142069_j78125455115060_2_alg».proof.Proof.AttnSpec
import proofs.«142069_j78125455115060_2_alg».proof.Proof.LibLayout3
import Idealize.ShloMosaic.PureOps.IdealRules
import Idealize.ShloMosaic.PureOps.Ideal.Laws
import Idealize.ShloMosaic.Lib.Pipeline.Value
import Idealize.ShloMosaic.Lib.ValueIdx

/-!
  The attention body's stored block, read at one index, is causal softmax attention.

  The body forms the scores `q · kᵀ` of a block of 1024 query rows against all 2048 key rows, scales them, replaces
  the scores of keys after the query row by `-∞`, normalises each row by its maximum `M` and by the sum `L` of the
  shifted exponentials, and multiplies the weights `exp (s - M) · (1 / L)` into the values. Each operation is read at
  an index written by coordinates; the mask is one fact on 32-bit words.
-/

noncomputable section

namespace Cert.AttnPayload

open Idealize.ShloMosaic Idealize.ShloMosaic.ValueIdx Cert.KernelIdeal Cert.KernelIdeal.Gen Cert.AttnSpec

/-! ## The two contractions

The operand indices of a contraction at an output index and a contraction index, one coordinate at a time. -/

theorem s_lhs_0 [Cert.KernelIdeal.Facts] (i : S1x1024x2048.Idx) (q : dot_S1x1024x64_S1x2048x64_S1x1024x2048_2_2_1_1_0_0.contr.Idx) :
    (dot_S1x1024x64_S1x2048x64_S1x1024x2048_2_2_1_1_0_0.lhsIdx i q 0).val = (i 0).val := by
  unfold DotDims.lhsIdx
  rw [dif_pos (show (0 : Fin S1x1024x64.rank) ∈ dot_S1x1024x64_S1x2048x64_S1x1024x2048_2_2_1_1_0_0.lhsBatch by decide)]
  rfl
theorem s_lhs_1 [Cert.KernelIdeal.Facts] (i : S1x1024x2048.Idx) (q : dot_S1x1024x64_S1x2048x64_S1x1024x2048_2_2_1_1_0_0.contr.Idx) :
    (dot_S1x1024x64_S1x2048x64_S1x1024x2048_2_2_1_1_0_0.lhsIdx i q 1).val = (i 1).val := by
  unfold DotDims.lhsIdx
  rw [dif_neg (show ¬(1 : Fin S1x1024x64.rank) ∈ dot_S1x1024x64_S1x2048x64_S1x1024x2048_2_2_1_1_0_0.lhsBatch by decide), dif_pos (show (1 : Fin S1x1024x64.rank) ∈ dot_S1x1024x64_S1x2048x64_S1x1024x2048_2_2_1_1_0_0.lhsNonContracting by decide)]
  rfl
theorem s_lhs_2 [Cert.KernelIdeal.Facts] (i : S1x1024x2048.Idx) (q : dot_S1x1024x64_S1x2048x64_S1x1024x2048_2_2_1_1_0_0.contr.Idx) :
    (dot_S1x1024x64_S1x2048x64_S1x1024x2048_2_2_1_1_0_0.lhsIdx i q 2).val = (q ⟨0, by decide⟩).val :=
  dot_S1x1024x64_S1x2048x64_S1x1024x2048_2_2_1_1_0_0.lhsIdx_val_of_single rfl i q
theorem s_rhs_0 [Cert.KernelIdeal.Facts] (i : S1x1024x2048.Idx) (q : dot_S1x1024x64_S1x2048x64_S1x1024x2048_2_2_1_1_0_0.contr.Idx) :
    (dot_S1x1024x64_S1x2048x64_S1x1024x2048_2_2_1_1_0_0.rhsIdx i q 0).val = (i 0).val := by
  unfold DotDims.rhsIdx
  rw [dif_pos (show (0 : Fin S1x2048x64.rank) ∈ dot_S1x1024x64_S1x2048x64_S1x1024x2048_2_2_1_1_0_0.rhsBatch by decide)]
  rfl
theorem s_rhs_1 [Cert.KernelIdeal.Facts] (i : S1x1024x2048.Idx) (q : dot_S1x1024x64_S1x2048x64_S1x1024x2048_2_2_1_1_0_0.contr.Idx) :
    (dot_S1x1024x64_S1x2048x64_S1x1024x2048_2_2_1_1_0_0.rhsIdx i q 1).val = (i 2).val := by
  unfold DotDims.rhsIdx
  rw [dif_neg (show ¬(1 : Fin S1x2048x64.rank) ∈ dot_S1x1024x64_S1x2048x64_S1x1024x2048_2_2_1_1_0_0.rhsBatch by decide), dif_pos (show (1 : Fin S1x2048x64.rank) ∈ dot_S1x1024x64_S1x2048x64_S1x1024x2048_2_2_1_1_0_0.rhsNonContracting by decide)]
  rfl
theorem s_rhs_2 [Cert.KernelIdeal.Facts] (i : S1x1024x2048.Idx) (q : dot_S1x1024x64_S1x2048x64_S1x1024x2048_2_2_1_1_0_0.contr.Idx) :
    (dot_S1x1024x64_S1x2048x64_S1x1024x2048_2_2_1_1_0_0.rhsIdx i q 2).val = (q ⟨0, by decide⟩).val :=
  dot_S1x1024x64_S1x2048x64_S1x1024x2048_2_2_1_1_0_0.rhsIdx_val_of_single rfl i q
theorem o_lhs_0 [Cert.KernelIdeal.Facts] (i : S1x1024x64.Idx) (q : dot_S1x1024x2048_S1x2048x64_S1x1024x64_2_1_1_2_0_0.contr.Idx) :
    (dot_S1x1024x2048_S1x2048x64_S1x1024x64_2_1_1_2_0_0.lhsIdx i q 0).val = (i 0).val := by
  unfold DotDims.lhsIdx
  rw [dif_pos (show (0 : Fin S1x1024x2048.rank) ∈ dot_S1x1024x2048_S1x2048x64_S1x1024x64_2_1_1_2_0_0.lhsBatch by decide)]
  rfl
theorem o_lhs_1 [Cert.KernelIdeal.Facts] (i : S1x1024x64.Idx) (q : dot_S1x1024x2048_S1x2048x64_S1x1024x64_2_1_1_2_0_0.contr.Idx) :
    (dot_S1x1024x2048_S1x2048x64_S1x1024x64_2_1_1_2_0_0.lhsIdx i q 1).val = (i 1).val := by
  unfold DotDims.lhsIdx
  rw [dif_neg (show ¬(1 : Fin S1x1024x2048.rank) ∈ dot_S1x1024x2048_S1x2048x64_S1x1024x64_2_1_1_2_0_0.lhsBatch by decide), dif_pos (show (1 : Fin S1x1024x2048.rank) ∈ dot_S1x1024x2048_S1x2048x64_S1x1024x64_2_1_1_2_0_0.lhsNonContracting by decide)]
  rfl
theorem o_lhs_2 [Cert.KernelIdeal.Facts] (i : S1x1024x64.Idx) (q : dot_S1x1024x2048_S1x2048x64_S1x1024x64_2_1_1_2_0_0.contr.Idx) :
    (dot_S1x1024x2048_S1x2048x64_S1x1024x64_2_1_1_2_0_0.lhsIdx i q 2).val = (q ⟨0, by decide⟩).val :=
  dot_S1x1024x2048_S1x2048x64_S1x1024x64_2_1_1_2_0_0.lhsIdx_val_of_single rfl i q
theorem o_rhs_0 [Cert.KernelIdeal.Facts] (i : S1x1024x64.Idx) (q : dot_S1x1024x2048_S1x2048x64_S1x1024x64_2_1_1_2_0_0.contr.Idx) :
    (dot_S1x1024x2048_S1x2048x64_S1x1024x64_2_1_1_2_0_0.rhsIdx i q 0).val = (i 0).val := by
  unfold DotDims.rhsIdx
  rw [dif_pos (show (0 : Fin S1x2048x64.rank) ∈ dot_S1x1024x2048_S1x2048x64_S1x1024x64_2_1_1_2_0_0.rhsBatch by decide)]
  rfl
theorem o_rhs_1 [Cert.KernelIdeal.Facts] (i : S1x1024x64.Idx) (q : dot_S1x1024x2048_S1x2048x64_S1x1024x64_2_1_1_2_0_0.contr.Idx) :
    (dot_S1x1024x2048_S1x2048x64_S1x1024x64_2_1_1_2_0_0.rhsIdx i q 1).val = (q ⟨0, by decide⟩).val :=
  dot_S1x1024x2048_S1x2048x64_S1x1024x64_2_1_1_2_0_0.rhsIdx_val_of_single rfl i q
theorem o_rhs_2 [Cert.KernelIdeal.Facts] (i : S1x1024x64.Idx) (q : dot_S1x1024x2048_S1x2048x64_S1x1024x64_2_1_1_2_0_0.contr.Idx) :
    (dot_S1x1024x2048_S1x2048x64_S1x1024x64_2_1_1_2_0_0.rhsIdx i q 2).val = (i 2).val := by
  unfold DotDims.rhsIdx
  rw [dif_neg (show ¬(2 : Fin S1x2048x64.rank) ∈ dot_S1x1024x2048_S1x2048x64_S1x1024x64_2_1_1_2_0_0.rhsBatch by decide), dif_pos (show (2 : Fin S1x2048x64.rank) ∈ dot_S1x1024x2048_S1x2048x64_S1x1024x64_2_1_1_2_0_0.rhsNonContracting by decide)]
  rfl

/-- The scores' contraction: row `r` of the left block against row `j` of the right block, over the 64 features. -/
theorem scores_apply [Cert.KernelIdeal.Facts] (lhs : FVec Ideal S1x1024x64 .f32) (rhs : FVec Ideal S1x2048x64 .f32)
    (r : Fin 1024) (j : Fin 2048) :
    matmul dot_S1x1024x64_S1x2048x64_S1x1024x2048_2_2_1_1_0_0 none lhs rhs (constant S1x1024x2048 .f32 0x00000000#32) (ix3 (0 : Fin 1) r j)
      = ∑ dd : Fin 64, lhs (ix3 (0 : Fin 1) r dd) * rhs (ix3 (0 : Fin 1) j dd) := by
  show FloatOps.matmul _ _ _ _ _ _ = _
  rw [Ideal.matmul_constant_zero_apply, ← Equiv.sum_comp (contrEquiv1 dot_S1x1024x64_S1x2048x64_S1x1024x2048_2_2_1_1_0_0 64 rfl rfl).symm]
  refine Finset.sum_congr rfl fun k _ => ?_
  have hk := contrEquiv1_symm_val dot_S1x1024x64_S1x2048x64_S1x1024x2048_2_2_1_1_0_0 64 rfl rfl k
  have el : dot_S1x1024x64_S1x2048x64_S1x1024x2048_2_2_1_1_0_0.lhsIdx (ix3 (0 : Fin 1) r j) ((contrEquiv1 dot_S1x1024x64_S1x2048x64_S1x1024x2048_2_2_1_1_0_0 64 rfl rfl).symm k) = ix3 (0 : Fin 1) r k :=
    funext fun a => Fin.ext (by
      match a with
      | ⟨0, _⟩ => exact s_lhs_0 _ _
      | ⟨1, _⟩ => exact s_lhs_1 _ _
      | ⟨2, _⟩ => exact (s_lhs_2 _ _).trans hk)
  have er : dot_S1x1024x64_S1x2048x64_S1x1024x2048_2_2_1_1_0_0.rhsIdx (ix3 (0 : Fin 1) r j) ((contrEquiv1 dot_S1x1024x64_S1x2048x64_S1x1024x2048_2_2_1_1_0_0 64 rfl rfl).symm k) = ix3 (0 : Fin 1) j k :=
    funext fun a => Fin.ext (by
      match a with
      | ⟨0, _⟩ => exact s_rhs_0 _ _
      | ⟨1, _⟩ => exact s_rhs_1 _ _
      | ⟨2, _⟩ => exact (s_rhs_2 _ _).trans hk)
  rw [el, er]

/-- The output's contraction: row `r` of the weights against column `d` of the values, over the 2048 key rows. -/
theorem out_apply [Cert.KernelIdeal.Facts] (lhs : FVec Ideal S1x1024x2048 .f32) (rhs : FVec Ideal S1x2048x64 .f32)
    (r : Fin 1024) (d : Fin 64) :
    matmul dot_S1x1024x2048_S1x2048x64_S1x1024x64_2_1_1_2_0_0 none lhs rhs (constant S1x1024x64 .f32 0x00000000#32) (ix3 (0 : Fin 1) r d)
      = ∑ j : Fin 2048, lhs (ix3 (0 : Fin 1) r j) * rhs (ix3 (0 : Fin 1) j d) := by
  show FloatOps.matmul _ _ _ _ _ _ = _
  rw [Ideal.matmul_constant_zero_apply, ← Equiv.sum_comp (contrEquiv1 dot_S1x1024x2048_S1x2048x64_S1x1024x64_2_1_1_2_0_0 2048 rfl rfl).symm]
  refine Finset.sum_congr rfl fun k _ => ?_
  have hk := contrEquiv1_symm_val dot_S1x1024x2048_S1x2048x64_S1x1024x64_2_1_1_2_0_0 2048 rfl rfl k
  have el : dot_S1x1024x2048_S1x2048x64_S1x1024x64_2_1_1_2_0_0.lhsIdx (ix3 (0 : Fin 1) r d) ((contrEquiv1 dot_S1x1024x2048_S1x2048x64_S1x1024x64_2_1_1_2_0_0 2048 rfl rfl).symm k) = ix3 (0 : Fin 1) r k :=
    funext fun a => Fin.ext (by
      match a with
      | ⟨0, _⟩ => exact o_lhs_0 _ _
      | ⟨1, _⟩ => exact o_lhs_1 _ _
      | ⟨2, _⟩ => exact (o_lhs_2 _ _).trans hk)
  have er : dot_S1x1024x2048_S1x2048x64_S1x1024x64_2_1_1_2_0_0.rhsIdx (ix3 (0 : Fin 1) r d) ((contrEquiv1 dot_S1x1024x2048_S1x2048x64_S1x1024x64_2_1_1_2_0_0 2048 rfl rfl).symm k) = ix3 (0 : Fin 1) k d :=
    funext fun a => Fin.ext (by
      match a with
      | ⟨0, _⟩ => exact o_rhs_0 _ _
      | ⟨1, _⟩ => exact (o_rhs_1 _ _).trans hk
      | ⟨2, _⟩ => exact o_rhs_2 _ _)
  rw [el, er]

/-! ## The causal mask: one fact on 32-bit words -/

/-- A natural number below `2^31`, as a 32-bit word, is itself as a signed integer. -/
theorem toInt_ofNat_of_lt (n : Nat) (h : n < 2 ^ 31) : (BitVec.ofNat 32 n).toInt = (n : Int) := by
  have hm : n % 2 ^ 32 = n := Nat.mod_eq_of_lt (by omega)
  rw [BitVec.toInt_eq_toNat_cond, BitVec.toNat_ofNat, hm, if_pos (by omega)]

/-- The row number `qi · 1024 + r` of the block's row `r`, computed on words, does not wrap. -/
theorem row_word (qi r : Nat) (hq : qi < 2) (hr : r < 1024) :
    IntOp.addi (Scalar.muli (BitVec.ofNat 32 qi) 1024#32) (BitVec.ofNat 32 r) = BitVec.ofNat 32 (qi * 1024 + r) := by
  show BitVec.ofNat 32 qi * 1024#32 + BitVec.ofNat 32 r = BitVec.ofNat 32 (qi * 1024 + r)
  apply BitVec.eq_of_toNat_eq
  simp only [BitVec.toNat_add, BitVec.toNat_mul, BitVec.toNat_ofNat]
  omega

/-- The mask's bit at row `r` of block `qi` and key `j`: `1` exactly where the key is not after the query row. -/
theorem mask_bit (qi r j : Nat) (hq : qi < 2) (hr : r < 1024) (hj : j < 2048) :
    IntOp.cmpi .sge (IntOp.addi (Scalar.muli (BitVec.ofNat 32 qi) 1024#32) (BitVec.ofNat 32 r)) (BitVec.ofNat 32 j)
      = if j ≤ qi * 1024 + r then 1#1 else 0#1 := by
  rw [row_word qi r hq hr]
  have h1 := toInt_ofNat_of_lt (qi * 1024 + r) (by omega)
  have h2 := toInt_ofNat_of_lt j (by omega)
  split
  · next h => exact IntOp.cmpi_sge.2 (by rw [h1, h2]; omega)
  · next h =>
    refine eq_zero_of_ne_one fun e => h ?_
    have := IntOp.cmpi_sge.1 e
    rw [h1, h2] at this
    omega

/-! ## The two row reductions -/

/-- Dropping the last axis of `[1, 1024, 2048]`: the index over row `r` whose last coordinate is `k` is `(0, r, k)`. -/
theorem lift_row (h : S1x1024x2048.Reduces [2] S1x1024) (r : Fin 1024) (k : Fin (S1x1024x2048.size 2)) :
    h.lift (ix2 (0 : Fin 1) r) k = ix3 (0 : Fin 1) r (⟨k.val, k.isLt⟩ : Fin 2048) := by
  funext ax; apply Fin.ext
  fin_cases ax <;> rfl

/-- A row's maximum: the fold of `max` over the row from `-∞`, the value of the word `0xFF800000`. -/
theorem rowmax_apply (y : FVec Ideal S1x1024x2048 .f32) (r : Fin 1024) (h : S1x1024x2048.Reduces [2] S1x1024)
    (hφ : FKind.Formats .f32) (hacc : (0xFF800000#32 : BitVec FTy.f32.bits) = FKind.maximumf.neutral .f32 hφ) :
    multiReduction (F := Ideal) .maximumf [2] S1x1024 y 0xFF800000#32 h hφ hacc (ix2 (0 : Fin 1) r)
      = rowMax fun j => y (ix3 (0 : Fin 1) r j) := by
  refine (Ideal.multiReduction_maximumf_single y _ h hφ hacc _).trans ?_
  have e : (y ∘ h.lift (ix2 (0 : Fin 1) r)) = fun j : Fin 2048 => y (ix3 (0 : Fin 1) r j) :=
    funext fun k => congrArg y (lift_row h r k)
  rw [e, Ideal.ofBits_def, neg_inf_eq]
  rfl

/-- A row's sum. -/
theorem rowsum_apply (y : FVec Ideal S1x1024x2048 .f32) (r : Fin 1024) (h : S1x1024x2048.Reduces [2] S1x1024)
    (hφ : FKind.Formats .f32) (hacc : (0x00000000#32 : BitVec FTy.f32.bits) = FKind.add.neutral .f32 hφ) :
    multiReduction (F := Ideal) .add [2] S1x1024 y 0x00000000#32 h hφ hacc (ix2 (0 : Fin 1) r)
      = ∑ j : Fin 2048, y (ix3 (0 : Fin 1) r j) := by
  refine (Ideal.multiReduction_add_single y _ h hφ hacc _).trans ?_
  exact Finset.sum_congr rfl fun k _ => congrArg y (lift_row h r k)

/-! ## The body in three stages: masked scores, shifted exponentials, weights -/

/-- The masked, scaled scores of the block's rows against all key rows, as the body computes them from the block
    number's word `w`. -/
def scoresV [Cert.KernelIdeal.Facts] (w : BitVec 32) (x0 : FVec Ideal S1x1024x64 .f32) (x1 : FVec Ideal S1x2048x64 .f32) :
    FVec Ideal S1x1024x2048 .f32 :=
  select
    (cmpi .sge
      (addi (broadcast S1x1024x2048 (Scalar.muli w 1024#32)) (iota .tc S1x1024x2048 32 [1] iota_S1x1024x2048_d1_w32))
      (iota .tc S1x1024x2048 32 [2] iota_S1x1024x2048_d2_w32))
    (mulf (matmul dot_S1x1024x64_S1x2048x64_S1x1024x2048_2_2_1_1_0_0 none x0 x1 (constant S1x1024x2048 .f32 0x00000000#32))
      (broadcast S1x1024x2048 (Scalar.ofBits .f32 0x3D000000#32)))
    (broadcast S1x1024x2048 (Named.named κ "neg_big" 0xFF333332#32))

/-- The exponentials of the scores shifted by their row's maximum. -/
def expV [Cert.KernelIdeal.Facts] (y : FVec Ideal S1x1024x2048 .f32) : FVec Ideal S1x1024x2048 .f32 :=
  exp (subf y (broadcastTo S1x1024x2048
    (shapeCast S1x1024x1 (multiReduction .maximumf [2] S1x1024 y 0xFF800000#32 reduces_S1x1024x2048_S1x1024 (.inl rfl) rfl)
      shapeCasts_S1x1024_S1x1024x1) broadcasts_S1x1024x1_S1x1024x2048))

/-- The weights: each exponential times the reciprocal of its row's sum. -/
def weightV [Cert.KernelIdeal.Facts] (e : FVec Ideal S1x1024x2048 .f32) : FVec Ideal S1x1024x2048 .f32 :=
  mulf e (broadcastTo S1x1024x2048
    (divf (broadcast S1x1024x1 (Scalar.ofBits .f32 0x3F800000#32))
      (shapeCast S1x1024x1 (multiReduction .add [2] S1x1024 e 0x00000000#32 reduces_S1x1024x2048_S1x1024 (.inl rfl) rfl)
        shapeCasts_S1x1024_S1x1024x1)) broadcasts_S1x1024x1_S1x1024x2048)

/-- The stored block is the weights contracted with the values. -/
theorem pay1_eq [Cert.KernelIdeal.Facts] (i : grid1.Coords)
    (x0 : Vec Ideal S1x1024x64 .f32) (x1 x2 : Vec Ideal S1x2048x64 .f32) :
    k1_pay1 (F := Ideal) i x0 x1 x2
      = matmul (φ₁ := .f32) (φ₂ := .f32) dot_S1x1024x2048_S1x2048x64_S1x1024x64_2_1_1_2_0_0 none
          (weightV (expV (scoresV (BitVec.ofNat 32 (i 1).val)
            (shapeCast S1x1024x64 (x0 : FVec Ideal S1x1024x64 .f32) shapeCasts_S1x1024x64_S1x1024x64)
            (shapeCast S1x2048x64 (x1 : FVec Ideal S1x2048x64 .f32) shapeCasts_S1x2048x64_S1x2048x64))))
          (shapeCast S1x2048x64 (x2 : FVec Ideal S1x2048x64 .f32) shapeCasts_S1x2048x64_S1x2048x64)
          (constant S1x1024x64 .f32 0x00000000#32) := rfl

/-- The name `"neg_big"` denotes `-∞`. -/
theorem neg_big_eq : Named.named (F := Ideal) Cert.KernelIdeal.κ "neg_big" (φ := .f32) 0xFF333332#32 = (⊥ : EReal) :=
  IdealRules.named_const.ideal_named_scalar _ _ _ _ rfl

/-- A masked score at row `r` of block `qi` and key `j`: the scaled inner product where `j` is not after the row, else `-∞`. -/
theorem scoresV_apply [Cert.KernelIdeal.Facts] (qi : Nat) (hq : qi < 2) (x0 : FVec Ideal S1x1024x64 .f32)
    (x1 : FVec Ideal S1x2048x64 .f32) (r : Fin 1024) (j : Fin 2048) :
    scoresV (BitVec.ofNat 32 qi) x0 x1 (ix3 (0 : Fin 1) r j)
      = if j.val ≤ qi * 1024 + r.val then
          (∑ dd : Fin 64, x0 (ix3 (0 : Fin 1) r dd) * x1 (ix3 (0 : Fin 1) j dd)) * Ideal.ofBits .f32 0x3D000000#32
        else ⊥ := by
  have hm := mask_bit qi r.val j.val hq r.isLt j.isLt
  have hi1 : iota .tc S1x1024x2048 32 [1] iota_S1x1024x2048_d1_w32 (ix3 (0 : Fin 1) r j) = BitVec.ofNat 32 r.val :=
    iota_single_apply .tc S1x1024x2048 32 1 iota_S1x1024x2048_d1_w32 (ix3 (0 : Fin 1) r j)
  have hi2 : iota .tc S1x1024x2048 32 [2] iota_S1x1024x2048_d2_w32 (ix3 (0 : Fin 1) r j) = BitVec.ofNat 32 j.val :=
    iota_single_apply .tc S1x1024x2048 32 2 iota_S1x1024x2048_d2_w32 (ix3 (0 : Fin 1) r j)
  have hmm := scores_apply x0 x1 r j
  show Scalar.select
      (IntOp.cmpi .sge
        (IntOp.addi (Scalar.muli (BitVec.ofNat 32 qi) 1024#32)
          (iota .tc S1x1024x2048 32 [1] iota_S1x1024x2048_d1_w32 (ix3 (0 : Fin 1) r j)))
        (iota .tc S1x1024x2048 32 [2] iota_S1x1024x2048_d2_w32 (ix3 (0 : Fin 1) r j)))
      (matmul dot_S1x1024x64_S1x2048x64_S1x1024x2048_2_2_1_1_0_0 none x0 x1 (constant S1x1024x2048 .f32 0x00000000#32) (ix3 (0 : Fin 1) r j)
        * Ideal.ofBits .f32 0x3D000000#32)
      (Named.named (F := Ideal) Cert.KernelIdeal.κ "neg_big" (φ := .f32) 0xFF333332#32) = _
  rw [hi1, hi2, hmm, neg_big_eq, hm]
  by_cases h : j.val ≤ qi * 1024 + r.val
  · rw [if_pos h, if_pos h, select_one]
  · rw [if_neg h, if_neg h, select_zero]

/-- A shifted exponential at row `r`, key `j`. -/
theorem expV_apply [Cert.KernelIdeal.Facts] (y : FVec Ideal S1x1024x2048 .f32) (r : Fin 1024) (j : Fin 2048) :
    expV y (ix3 (0 : Fin 1) r j)
      = Ideal.exp (y (ix3 (0 : Fin 1) r j) - rowMax fun j' => y (ix3 (0 : Fin 1) r j')) := by
  show Ideal.exp (y (ix3 (0 : Fin 1) r j) - broadcastTo S1x1024x2048
    (shapeCast S1x1024x1 (multiReduction (F := Ideal) .maximumf [2] S1x1024 y 0xFF800000#32 reduces_S1x1024x2048_S1x1024 (.inl rfl) rfl)
      shapeCasts_S1x1024_S1x1024x1) broadcasts_S1x1024x1_S1x1024x2048 (ix3 (0 : Fin 1) r j)) = _
  rw [broadcastTo_ab1_abc_apply, shapeCast_ab_ab1_apply]
  exact congrArg (fun m => Ideal.exp (y (ix3 (0 : Fin 1) r j) - m)) (rowmax_apply y r _ _ _)

/-- A weight at row `r`, key `j`. -/
theorem weightV_apply [Cert.KernelIdeal.Facts] (e : FVec Ideal S1x1024x2048 .f32) (r : Fin 1024) (j : Fin 2048) :
    weightV e (ix3 (0 : Fin 1) r j)
      = e (ix3 (0 : Fin 1) r j) * Ideal.div 1 (∑ j' : Fin 2048, e (ix3 (0 : Fin 1) r j')) := by
  show e (ix3 (0 : Fin 1) r j) * broadcastTo S1x1024x2048
    (divf (broadcast S1x1024x1 (Ideal.ofBits .f32 0x3F800000#32))
      (shapeCast S1x1024x1 (multiReduction (F := Ideal) .add [2] S1x1024 e 0x00000000#32 reduces_S1x1024x2048_S1x1024 (.inl rfl) rfl)
        shapeCasts_S1x1024_S1x1024x1)) broadcasts_S1x1024x1_S1x1024x2048 (ix3 (0 : Fin 1) r j) = _
  rw [broadcastTo_ab1_abc_apply, divf_apply, broadcast_apply, shapeCast_ab_ab1_apply, one_eq]
  exact congrArg (fun m => e (ix3 (0 : Fin 1) r j) * Ideal.div 1 m) (rowsum_apply e r _ _ _)

/-! ## The stored block at an index -/

/-- The body's stored block at row r, column d is causal softmax attention (weights exp · (1/L)) of query row t = qi·1024 + r of batch b, when the three loaded blocks are rows of q, k, v of that batch. -/
theorem pay1_at [Cert.KernelIdeal.Facts] (i : grid1.Coords)
    (x0 : Vec Ideal S1x1024x64 .f32) (x1 x2 : Vec Ideal S1x2048x64 .f32) (q k v : QKV)
    (b : Fin 4) (t : Fin 2048) (r : Fin 1024) (d : Fin 64)
    (ht : t.val = (i 1).val * 1024 + r.val)
    (h0 : ∀ dd : Fin 64, x0 (ix3 (0 : Fin 1) r dd) = q b t dd)
    (h1 : ∀ (j : Fin 2048) (dd : Fin 64), x1 (ix3 (0 : Fin 1) j dd) = k b j dd)
    (h2 : ∀ j : Fin 2048, x2 (ix3 (0 : Fin 1) j d) = v b j d) :
    k1_pay1 (F := Ideal) i x0 x1 x2 (ix3 (0 : Fin 1) r d) = outMul q k v b t d := by
  have hq : (i 1).val < 2 := (i 1).isLt
  -- a shape cast to the same shape changes nothing
  have c0 : shapeCast S1x1024x64 (x0 : FVec Ideal S1x1024x64 .f32) shapeCasts_S1x1024x64_S1x1024x64 = x0 := shapeCast_self _ _
  have c1 : shapeCast S1x2048x64 (x1 : FVec Ideal S1x2048x64 .f32) shapeCasts_S1x2048x64_S1x2048x64 = x1 := shapeCast_self _ _
  have c2 : shapeCast S1x2048x64 (x2 : FVec Ideal S1x2048x64 .f32) shapeCasts_S1x2048x64_S1x2048x64 = x2 := shapeCast_self _ _
  rw [pay1_eq, c0, c1, c2]
  refine (out_apply _ _ r d).trans ?_
  -- the masked scores of row r are the specification's scores of query row t
  have hS : ∀ j : Fin 2048, scoresV (BitVec.ofNat 32 (i 1).val) x0 x1 (ix3 (0 : Fin 1) r j) = score q k b t j := fun j => by
    rw [scoresV_apply _ hq]
    unfold score
    rw [ht]
    simp only [h0, h1]
  have hrow : (fun j : Fin 2048 => scoresV (BitVec.ofNat 32 (i 1).val) x0 x1 (ix3 (0 : Fin 1) r j)) = score q k b t :=
    funext hS
  have hE : ∀ j : Fin 2048, expV (scoresV (BitVec.ofNat 32 (i 1).val) x0 x1) (ix3 (0 : Fin 1) r j)
      = Ideal.exp (score q k b t j - rowMax (score q k b t)) := fun j => by
    rw [expV_apply, hrow, hS]
  unfold outMul rowSum
  refine Finset.sum_congr rfl fun j _ => ?_
  rw [weightV_apply, hE, h2]
  simp only [hE]

end Cert.AttnPayload

end
-- ==== Proof.KernelOut.lean ====
import proofs.«142069_j78125455115060_2_alg».proof.Proof.KernelRun
import proofs.«142069_j78125455115060_2_alg».proof.Proof.KernelQKV
import proofs.«142069_j78125455115060_2_alg».proof.Proof.KernelAttn
import proofs.«142069_j78125455115060_2_alg».proof.Proof.AttnPayload

/-!
# The idealized kernel's result array

After the run the result array holds, at `(b, t, d)`, causal softmax attention — weights `exp (s j - M) · (1 / L)` —
over the three projections of the argument arrays: the second region's array is the attention of the three arrays it
is entered with (block by block, the blocks covering the array), and those are the projections.
-/

set_option maxRecDepth 16384

noncomputable section

namespace Cert.KernelIdeal.KVal

open Cert.KernelIdeal Cert.KernelIdeal.Gen Cert.KernelIdeal.GenP Cert.AttnSpec Cert.KernelIdeal.KVal1
open Idealize.ShloMosaic Idealize.ShloMosaic.TcCoe Idealize.ShloMosaic.ValueIdx Idealize.SL.Sem

variable (m : (ℓ : Loc nD τ sig) → Buf (Elt Ideal) ℓ) (ρ : Dev nD → PrngReg)

/-- The payload's reading, in the form the blocks-to-array step takes it. -/
theorem payAt : PayAt := fun i x0 x1 x2 q k v b t r d ht h0 h1 h2 =>
  Cert.AttnPayload.pay1_at i x0 x1 x2 q k v b t r d ht h0 h1 h2

/-- The result array after the run, index by index. -/
theorem W4_v8 (c : Dev nD) : (W4 m ρ c (Proc.devRef .tc main_v8) : S4x2048x64.Idx → Elt Ideal .f32)
    = fun i => mulOut (m ((c : Thread nD τ).loc main_arg0)) (m ((c : Thread nD τ).loc main_arg1))
        (m ((c : Thread nD τ).loc main_arg2)) (m ((c : Thread nD τ).loc main_arg3)) (i 0) (i 1) (i 2) := by
  refine ((W4_arr m ρ c 3).trans (final1_3 (V3 m ρ) payAt c)).trans ?_
  have hq : arr3 (V3 m ρ c main_v5) = proj (arrX (m ((c : Thread nD τ).loc main_arg0))) (arrW (m ((c : Thread nD τ).loc main_arg1))) :=
    funext fun b => funext fun t => funext fun d => V3_main_v5_apply m ρ c b t d
  have hk : arr3 (V3 m ρ c main_v6) = proj (arrX (m ((c : Thread nD τ).loc main_arg0))) (arrW (m ((c : Thread nD τ).loc main_arg2))) :=
    funext fun b => funext fun t => funext fun d => V3_main_v6_apply m ρ c b t d
  have hv : arr3 (V3 m ρ c main_v7) = proj (arrX (m ((c : Thread nD τ).loc main_arg0))) (arrW (m ((c : Thread nD τ).loc main_arg3))) :=
    funext fun b => funext fun t => funext fun d => V3_main_v7_apply m ρ c b t d
  unfold attnG mulOut
  rw [hq, hk, hv]
  rfl

end Cert.KernelIdeal.KVal

end
-- ==== Proof.RefValue.lean ====
import proofs.«142069_j78125455115060_2_alg».proof.Proof.Gen.ReferenceIdeal.Read
import proofs.«142069_j78125455115060_2_alg».proof.Proof.AttnSpec
import Idealize.ShloMosaic.Lib.ValueIdx
import Idealize.ShloMosaic.Lib.IdealHost
import Idealize.ShloMosaic.Lib.Affine
import Idealize.ShloMosaic.Lib.WordArith
import Idealize.ShloMosaic.PureOps.Ideal.Laws
import Idealize.ShloMosaic.PureOps.Reduce

/-!
# The reference's value at an index is causal softmax attention

Each operation of the reference is read at one index, from the result backwards: the three projections are sums over
the model axis; the mask bit at (t, j) says `j ≤ t`; the masked score is the scaled dot product where the bit is set
and `-∞` elsewhere; the row maximum is the fold of `max` from `-∞` over the key axis, once more maximised with
`-∞`; the row sum is zero plus the sum of the shifted exponentials; the result is the sum over the key axis of the
quotient weights times the values.
-/

noncomputable section

namespace Cert.RefValue

open Idealize.ShloMosaic Cert.ReferenceIdeal Cert.ReferenceIdeal.Read
open Idealize.ShloMosaic.ValueIdx (ix2 ix3)
open Cert.AttnSpec (proj score rowMax rowSum arrX arrW)

/-! ## The three projections -/

/-- The query projection at (b, t, d) is the sum over the model axis. -/
theorem val_q (x0 : (⟨S4x2048x1024, .f32⟩ : BufTy).Contents (Elt Ideal)) (x1 : (⟨S64x1024, .f32⟩ : BufTy).Contents (Elt Ideal))
    (b : Fin 4) (t : Fin 2048) (d : Fin 64) :
    val_main_v0 (F := Ideal) x0 x1 (ix3 b t d) = proj (arrX x0) (arrW x1) b t d := by
  rw [val_main_v0_apply]
  unfold proj arrX arrW
  refine Finset.sum_congr rfl fun c _ => ?_
  have el : lidx_main_v0 (ix3 b t d) c = ix3 b t c :=
    funext fun a => Fin.ext (by match a with | ⟨0, _⟩ => rfl | ⟨1, _⟩ => rfl | ⟨2, _⟩ => rfl)
  have er : ridx_main_v0 (ix3 b t d) c = ix2 d c :=
    funext fun a => Fin.ext (by match a with | ⟨0, _⟩ => rfl | ⟨1, _⟩ => rfl)
  rw [el, er]

/-- The key projection at (b, t, d). -/
theorem val_k (x0 : (⟨S4x2048x1024, .f32⟩ : BufTy).Contents (Elt Ideal)) (x2 : (⟨S64x1024, .f32⟩ : BufTy).Contents (Elt Ideal))
    (b : Fin 4) (t : Fin 2048) (d : Fin 64) :
    val_main_v1 (F := Ideal) x0 x2 (ix3 b t d) = proj (arrX x0) (arrW x2) b t d := by
  rw [val_main_v1_apply]
  unfold proj arrX arrW
  refine Finset.sum_congr rfl fun c _ => ?_
  have el : lidx_main_v1 (ix3 b t d) c = ix3 b t c :=
    funext fun a => Fin.ext (by match a with | ⟨0, _⟩ => rfl | ⟨1, _⟩ => rfl | ⟨2, _⟩ => rfl)
  have er : ridx_main_v1 (ix3 b t d) c = ix2 d c :=
    funext fun a => Fin.ext (by match a with | ⟨0, _⟩ => rfl | ⟨1, _⟩ => rfl)
  rw [el, er]

/-- The value projection at (b, t, d). -/
theorem val_v (x0 : (⟨S4x2048x1024, .f32⟩ : BufTy).Contents (Elt Ideal)) (x3 : (⟨S64x1024, .f32⟩ : BufTy).Contents (Elt Ideal))
    (b : Fin 4) (t : Fin 2048) (d : Fin 64) :
    val_main_v2 (F := Ideal) x0 x3 (ix3 b t d) = proj (arrX x0) (arrW x3) b t d := by
  rw [val_main_v2_apply]
  unfold proj arrX arrW
  refine Finset.sum_congr rfl fun c _ => ?_
  have el : lidx_main_v2 (ix3 b t d) c = ix3 b t c :=
    funext fun a => Fin.ext (by match a with | ⟨0, _⟩ => rfl | ⟨1, _⟩ => rfl | ⟨2, _⟩ => rfl)
  have er : ridx_main_v2 (ix3 b t d) c = ix2 d c :=
    funext fun a => Fin.ext (by match a with | ⟨0, _⟩ => rfl | ⟨1, _⟩ => rfl)
  rw [el, er]

/-! ## The mask -/

/-- A signed comparison of two small naturals read as 32-bit words is the comparison of the naturals. -/
theorem sge_small (a c : Nat) (ha : a < 2048) (hc : c < 2048) :
    IntOp.cmpi .sge (IntOp.addi (BitVec.ofNat 32 a) 0#32) (BitVec.ofNat 32 c) = 1#1 ↔ c ≤ a := by
  rw [IntOp.cmpi_sge]
  unfold IntOp.addi
  rw [BitVec.add_zero, WordArith.toInt_ofNat_small a (by omega), WordArith.toInt_ofNat_small c (by omega)]
  omega

/-- The mask bit at (b, t, j) is set exactly when `j ≤ t`. -/
theorem val_mask (b : Fin 4) (t j : Fin 2048) :
    val_main_call1_v1 (F := Ideal) (ix3 b t j) = if j.val ≤ t.val then 1#1 else 0#1 := by
  rw [val_main_call1_v1_apply]
  have e : idx_main_call1_v1 (ix3 b t j) = ix2 t j :=
    funext fun a => Fin.ext (by match a with | ⟨0, _⟩ => rfl | ⟨1, _⟩ => rfl)
  rw [e, val_main_v7_apply, val_main_call0_v4_apply, val_main_call0_v2_apply, val_main_call0_v0_apply,
    val_main_call0_v3_apply, val_main_call0_v1_apply, val_main_call0_c_apply, val_main_v6_apply, val_main_c_apply,
    val_main_call0_v5_apply, val_main_call0_c_0_apply]
  have hc := sge_small t.val j.val t.isLt j.isLt
  by_cases h : j.val ≤ t.val
  · rw [if_pos h]
    show Scalar.select (IntOp.cmpi .sge (IntOp.addi (BitVec.ofNat 32 t.val) 0#32) (BitVec.ofNat 32 j.val)) 1#1 0#1 = 1#1
    rw [hc.mpr h, ValueIdx.select_one]
  · rw [if_neg h]
    show Scalar.select (IntOp.cmpi .sge (IntOp.addi (BitVec.ofNat 32 t.val) 0#32) (BitVec.ofNat 32 j.val)) 1#1 0#1 = 0#1
    rw [ValueIdx.eq_zero_of_ne_one (mt hc.mp h), ValueIdx.select_zero]

/-! ## The masked score -/

/-- The masked, scaled score at (b, t, j). -/
theorem val_score (x0 : (⟨S4x2048x1024, .f32⟩ : BufTy).Contents (Elt Ideal)) (x1 x2 : (⟨S64x1024, .f32⟩ : BufTy).Contents (Elt Ideal))
    (b : Fin 4) (t j : Fin 2048) :
    val_main_v8 (F := Ideal) x0 x1 x2 (ix3 b t j)
      = score (proj (arrX x0) (arrW x1)) (proj (arrX x0) (arrW x2)) b t j := by
  rw [val_main_v8_apply, val_mask]
  unfold score
  by_cases h : j.val ≤ t.val
  · rw [if_pos h, if_pos h, ValueIdx.select_one, val_main_v5_apply, val_main_v3_apply, val_main_v4_apply,
      val_main_cst_apply, Ideal.mulf_def, Ideal.ofBits_def]
    refine congrArg (· * Ideal.ofBits .f32 0x3D000000#32) (Finset.sum_congr rfl fun d _ => ?_)
    have el : lidx_main_v3 (ix3 b t j) d = ix3 b t d :=
      funext fun a => Fin.ext (by match a with | ⟨0, _⟩ => rfl | ⟨1, _⟩ => rfl | ⟨2, _⟩ => rfl)
    have er : ridx_main_v3 (ix3 b t j) d = ix3 b j d :=
      funext fun a => Fin.ext (by match a with | ⟨0, _⟩ => rfl | ⟨1, _⟩ => rfl | ⟨2, _⟩ => rfl)
    rw [el, er, val_q, val_k]
  · rw [if_neg h, if_neg h, ValueIdx.select_zero, val_main_call1_v2_apply, val_main_call1_v0_apply,
      val_main_cst_0_apply, Ideal.ofBits_def, Cert.AttnSpec.neg_inf_eq]

/-! ## The row maximum -/

/-- The key axis reduces away. -/
theorem reduces_key : S4x2048x2048.Reduces [2] S4x2048 := by decide

/-- A reduced index (b, t) with the key coordinate `k` put back is (b, t, k). -/
theorem lift_key (b : Fin 4) (t : Fin 2048) (k : Fin (S4x2048x2048.size 2)) :
    reduces_key.lift (ix2 b t) k = ix3 b t (⟨k.val, k.isLt⟩ : Fin 2048) := by
  funext c; apply Fin.ext
  match c with
  | ⟨0, _⟩ => rfl
  | ⟨1, _⟩ => rfl
  | ⟨2, _⟩ => rfl

/-- The fold of `max` from `-∞` along the key axis of an array that reads `s` on row (b, t). -/
theorem fold_key (y : S4x2048x2048.Idx → EReal) (s : Fin 2048 → EReal) (init : EReal) (hinit : init = ⊥)
    (b : Fin 4) (t : Fin 2048) (hs : ∀ k : Fin 2048, y (ix3 b t k) = s k) :
    (Finset.univ : Finset (Fin (S4x2048x2048.size 2))).fold (FloatOps.maximumf (F := Ideal) (φ := .f32)) init
        (y ∘ reduces_key.lift (ix2 b t)) = rowMax s := by
  subst hinit
  have hf : (y ∘ reduces_key.lift (ix2 b t)) = fun k : Fin 2048 => s k := funext fun k => by
    show y (reduces_key.lift (ix2 b t) k) = _
    rw [lift_key]; exact hs _
  unfold rowMax
  exact congrArg (fun f => Finset.fold max (⊥ : EReal) f (Finset.univ : Finset (Fin 2048))) hf

/-- The row maximum at (b, t): the maximum with `-∞` of the fold of `max` from `-∞` over the row's scores. -/
theorem val_max (x0 : (⟨S4x2048x1024, .f32⟩ : BufTy).Contents (Elt Ideal)) (x1 x2 : (⟨S64x1024, .f32⟩ : BufTy).Contents (Elt Ideal))
    (b : Fin 4) (t : Fin 2048) :
    val_main_v11 (F := Ideal) x0 x1 x2 (ix2 b t)
      = max ⊥ (rowMax (score (proj (arrX x0) (arrW x1)) (proj (arrX x0) (arrW x2)) b t)) := by
  rw [val_main_v11_apply, val_main_v10_apply, val_main_cst_2_apply, Ideal.maximumf_def, Ideal.ofBits_def,
    Cert.AttnSpec.neg_inf_eq]
  refine congrArg (max ⊥) ?_
  have hs := fun k : Fin 2048 => val_score x0 x1 x2 b t k
  unfold val_main_v9
  generalize val_main_v8 (F := Ideal) x0 x1 x2 = y at hs ⊢
  have hi : val_main_cst_1 (F := Ideal) (Shape.Idx.first Gen.h_S_) = ⊥ := by
    rw [val_main_cst_1_apply, Ideal.ofBits_def, Cert.AttnSpec.neg_inf_eq]
  exact (Host.reduce_eq_fold_single (FloatOps.maximumf (F := Ideal) (φ := .f32)) y _ _ reduces_key _ (ix2 b t)).trans
    (fold_key y _ _ hi b t hs)

/-! ## The shifted exponentials and their row sum -/

/-- The shifted exponential at (b, t, j). -/
theorem val_exp (x0 : (⟨S4x2048x1024, .f32⟩ : BufTy).Contents (Elt Ideal)) (x1 x2 : (⟨S64x1024, .f32⟩ : BufTy).Contents (Elt Ideal))
    (b : Fin 4) (t j : Fin 2048) :
    val_main_v15 (F := Ideal) x0 x1 x2 (ix3 b t j)
      = Ideal.exp (score (proj (arrX x0) (arrW x1)) (proj (arrX x0) (arrW x2)) b t j
          - max ⊥ (rowMax (score (proj (arrX x0) (arrW x1)) (proj (arrX x0) (arrW x2)) b t))) := by
  rw [val_main_v15_apply, val_main_v14_apply, val_main_v13_apply]
  have e13 : idx_main_v13 (ix3 b t j) = ix3 b t (0 : Fin 1) :=
    funext fun a => Fin.ext (by match a with | ⟨0, _⟩ => rfl | ⟨1, _⟩ => rfl | ⟨2, _⟩ => rfl)
  rw [e13, val_main_v12_apply]
  have e12 : idx_main_v12 (ix3 b t (0 : Fin 1)) = ix2 b t :=
    funext fun a => Fin.ext (by match a with | ⟨0, _⟩ => rfl | ⟨1, _⟩ => rfl)
  rw [e12, val_max, val_score, Ideal.hostUnary_exp_def, Ideal.subf_def]

/-- The row sum at (b, t): zero plus the sum of the row's shifted exponentials. -/
theorem val_sum (x0 : (⟨S4x2048x1024, .f32⟩ : BufTy).Contents (Elt Ideal)) (x1 x2 : (⟨S64x1024, .f32⟩ : BufTy).Contents (Elt Ideal))
    (b : Fin 4) (t : Fin 2048) :
    val_main_v16 (F := Ideal) x0 x1 x2 (ix2 b t)
      = 0 + rowSum (score (proj (arrX x0) (arrW x1)) (proj (arrX x0) (arrW x2)) b t)
          (max ⊥ (rowMax (score (proj (arrX x0) (arrW x1)) (proj (arrX x0) (arrW x2)) b t))) := by
  rw [val_main_v16_apply, val_main_cst_3_apply, Ideal.ofBits_def, Ideal.ofBits_zero_f32]
  unfold rowSum
  refine congrArg (0 + ·) (Finset.sum_congr rfl fun k _ => ?_)
  have e : idx_main_v16 (ix2 b t) k = ix3 b t k :=
    funext fun a => Fin.ext (by match a with | ⟨0, _⟩ => rfl | ⟨1, _⟩ => rfl | ⟨2, _⟩ => rfl)
  rw [e, val_exp]

/-! ## The result -/

/-- The reference's result at (b, t, d) is causal softmax attention over the three projections, with the weights exp (s j - max (-∞) M) / (0 + L). -/
theorem ref_value [Cert.ReferenceIdeal.Facts]
    (x0 : (⟨S4x2048x1024, .f32⟩ : BufTy).Contents (Elt Ideal)) (x1 x2 x3 : (⟨S64x1024, .f32⟩ : BufTy).Contents (Elt Ideal))
    (b : Fin 4) (t : Fin 2048) (d : Fin 64) :
    val_main_v20 (F := Ideal) x0 x1 x2 x3 (ValueIdx.ix3 b t d) = Cert.AttnSpec.divOut x0 x1 x2 x3 b t d := by
  unfold Cert.AttnSpec.divOut Cert.AttnSpec.outDiv
  rw [val_main_v20_apply]
  refine Finset.sum_congr rfl fun j _ => ?_
  have el : lidx_main_v20 (ix3 b t d) j = ix3 b t j :=
    funext fun a => Fin.ext (by match a with | ⟨0, _⟩ => rfl | ⟨1, _⟩ => rfl | ⟨2, _⟩ => rfl)
  have er : ridx_main_v20 (ix3 b t d) j = ix3 b j d :=
    funext fun a => Fin.ext (by match a with | ⟨0, _⟩ => rfl | ⟨1, _⟩ => rfl | ⟨2, _⟩ => rfl)
  rw [el, er, val_v, val_main_v19_apply, val_main_v18_apply]
  have e18 : idx_main_v18 (ix3 b t j) = ix3 b t (0 : Fin 1) :=
    funext fun a => Fin.ext (by match a with | ⟨0, _⟩ => rfl | ⟨1, _⟩ => rfl | ⟨2, _⟩ => rfl)
  rw [e18, val_main_v17_apply]
  have e17 : idx_main_v17 (ix3 b t (0 : Fin 1)) = ix2 b t :=
    funext fun a => Fin.ext (by match a with | ⟨0, _⟩ => rfl | ⟨1, _⟩ => rfl)
  rw [e17, val_sum, val_exp, Ideal.hostDivf_def]

end Cert.RefValue

end
-- ==== Proof.FiniteInputs.lean ====
import proofs.«142069_j78125455115060_2_alg».proof.Pre_finite_inputs
import proofs.«142069_j78125455115060_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

/-!
  The precondition read back. The predicate computes, for each of the four argument arrays,
  the conjunction over all entries of `|x| < +∞`, and then the conjunction of the four.
  Where it is 1, every entry of every array has absolute value strictly below `⊤` in the
  extended reals, so it is neither `⊤` nor `⊥`: it is a real number.
-/

namespace Cert.FiniteInputs
open Idealize.ShloMosaic

/-- An extended real whose absolute value `max x (-x)` lies strictly below `⊤` is a real number:
    at `⊤` the maximum is `⊤`, at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the compared array: the comparison `|x| < +∞` came out 1, so `x` is real.
    The word `0x7F800000` denotes `⊤`. -/
theorem real_of_cmp (x : Ideal .f32)
    (h : FloatOps.cmpf (F := Ideal) .olt (FloatOps.hostAbsf x) (FloatOps.ofBits .f32 0x7F800000#32) = 1#1) :
    ∃ r : ℝ, x = (r : EReal) := by
  have htop : Ideal.ofBits .f32 0x7F800000#32 = (⊤ : EReal) := by simp [Ideal.ofBits, Ideal.ieee]
  rw [Ideal.hostAbsf_def, Ideal.ofBits_def, Ideal.cmpf_def, Ideal.absf_def, htop] at h
  refine real_of_abs_lt_top x ?_
  by_contra hn
  simp [Ideal.cmp, hn] at h

/-- The result shape of a reduction over all axes has exactly one index. -/
instance : Subsingleton Cert.Pre_finite_inputs.S_.Idx := ⟨fun a b => funext fun d => d.elim0⟩

/-- Where the precondition's predicate is all ones, every entry of every argument array is a real number. -/
theorem real_of_pre [Cert.Pre_finite_inputs.Facts]
    (x0 : FVec Ideal Cert.Pre_finite_inputs.S4x2048x1024 .f32) (x1 x2 x3 : FVec Ideal Cert.Pre_finite_inputs.S64x1024 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  simp only [andi, IntOp.andi_eq_one] at h0
  obtain ⟨⟨⟨e0, e1⟩, e2⟩, e3⟩ := h0
  refine ⟨fun i => ?_, fun i => ?_, fun i => ?_, fun i => ?_⟩
  · exact real_of_cmp _ (Host.reduce_andi_all _ _ _ _ _ e0 i)
  · exact real_of_cmp _ (Host.reduce_andi_all _ _ _ _ _ e1 i)
  · exact real_of_cmp _ (Host.reduce_andi_all _ _ _ _ _ e2 i)
  · exact real_of_cmp _ (Host.reduce_andi_all _ _ _ _ _ e3 i)

end Cert.FiniteInputs
-- ==== Proof.lean ====
/-
  Causal self-attention as two pipelined kernels — a fused q / k / v projection over row blocks of the reshaped
  activations, then one masked softmax pass per (batch, query block) with the whole keys and values of the batch
  resident — against the plain jnp reference, at the ideal values.

  At `(b, t, d)` both programs compute `∑ j, w j · v b j d` over the projections `q, k, v = x · Wᵀ`, with the row of
  scores `s j = (∑ d, q b t d · k b j d) / 32` for `j ≤ t` and `-∞` above the diagonal. The kernel's fill is a finite
  word the certificate names `-∞` (the one ledger entry: `preserves`). The kernel weights by `exp (s j - M) · (1 / L)`, the
  reference by `exp (s j - max (-∞) M) / (0 + L)`; these agree as soon as `L ≠ 0`, which holds for real inputs because the
  diagonal score is a real number and no score is `+∞` (Proof/AttnSpec.lean). So the precondition is used: with an infinite
  input the row sum can vanish and the two quotients differ.

  The kernel's frames are the generated ones with the grid coordinate of the attention body's store bound
  (Proof/FrameK.lean, Proof/FrameKI.lean); the kernel's run names its result array (Proof/KernelRun.lean) and reads it
  region by region (Proof/KernelProj.lean, Proof/KernelQKV.lean, Proof/KernelAttn.lean, Proof/AttnPayload.lean,
  Proof/KernelOut.lean); the reference's run and its stages are the generated ones, read at an index in
  Proof/RefValue.lean; Proof/FiniteInputs.lean opens the precondition.
-/
import proofs.«142069_j78125455115060_2_alg».proof.Defs
import proofs.«142069_j78125455115060_2_alg».proof.Proof.Gen.Kernel
import proofs.«142069_j78125455115060_2_alg».proof.Proof.Gen.KernelIdeal
import proofs.«142069_j78125455115060_2_alg».proof.Proof.Gen.ReferenceIdeal
import proofs.«142069_j78125455115060_2_alg».proof.Proof.Gen.Pre_finite_inputs
import proofs.«142069_j78125455115060_2_alg».proof.Proof.Gen.ReferenceIdeal.Run
import proofs.«142069_j78125455115060_2_alg».proof.Proof.Gen.ReferenceIdeal.Read
import proofs.«142069_j78125455115060_2_alg».proof.Proof.FrameK
import proofs.«142069_j78125455115060_2_alg».proof.Proof.FrameKI
import proofs.«142069_j78125455115060_2_alg».proof.Proof.KernelRun
import proofs.«142069_j78125455115060_2_alg».proof.Proof.KernelOut
import proofs.«142069_j78125455115060_2_alg».proof.Proof.RefValue
import proofs.«142069_j78125455115060_2_alg».proof.Proof.FiniteInputs
import proofs.«142069_j78125455115060_2_alg».proof.Proof.AttnSpec
import Idealize.ShloMosaic.PureOps.IdealRules
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the certificate's table gives the mask's fill the value `-∞`, and the printed constant is
    that value at the ideal instance. -/
theorem preserves : Cert.preserves_Kernel_KernelIdeal :=
  IdealRules.named_const.statement Cert.KernelIdeal.κ "neg_big" .f32 0xFF333332#32 ⊥ rfl

/-- Both runs end, from memories agreeing on the arguments, with the attention of the three projections at every index:
    the kernel's with the weights `exp · (1 / L)`, the reference's with `exp / (0 + L)`, equal for real inputs. -/
theorem algebraic : Cert.algebraic_KernelIdeal_ReferenceIdeal := by
  intro m ρ m' ρ' hpre hagree
  refine ⟨fun c => fun i => Cert.AttnSpec.mulOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1) (i 2), ?_, ?_⟩
  · exact (θ_run Cert.KernelIdeal.defs _ _).mono
      (fun r h c => ⟨(h c).1.trans (Cert.KernelIdeal.KVal.W4_v8 m ρ c), (h c).2⟩)
      (Cert.KernelIdeal.KRun.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, _⟩ := Cert.FiniteInputs.real_of_pre _ _ _ _ (hpre c)
    rw [Cert.ReferenceIdeal.Read.val_main_v20_eq, (hagree c).1, (hagree c).2.1, (hagree c).2.2.1, (hagree c).2.2.2]
    funext i
    obtain ⟨b, t, d, rfl⟩ : ∃ (b : Fin 4) (t : Fin 2048) (d : Fin 64), i = ValueIdx.ix3 b t d := ⟨i 0, i 1, i 2, ValueIdx.eq_ix3 i⟩
    exact (Cert.RefValue.ref_value _ _ _ _ b t d).trans (Cert.AttnSpec.mulOut_eq_divOut _ _ _ _ h0 h1 h2 b t d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
